-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x65536 : Shape := ⟨2, ![512, 65536]⟩
abbrev S65536 : Shape := ⟨1, ![65536]⟩
abbrev S4096 : Shape := ⟨1, ![4096]⟩
abbrev S_ : Shape := ⟨0, ![]⟩

class Facts : Prop where
  bcast_S_S512x65536 : S_.BroadcastsInDim S512x65536 (![] : Fin 0 → Fin S512x65536.rank)
  reducesTo_S512x65536_S_d0_1 : S512x65536.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S512x65536 .f32) (main_arg1 : IVec S65536 32) (main_arg2 : FVec F S4096 .f32) (main_arg3 : FVec F S4096 .f32) : IVec S_ 1 :=
  let main_v0 : FVec F S512x65536 .f32 := Host.absf main_arg0
  let main_cst : FVec F S_ .f32 := constant S_ .f32 0x7F800000#32
  let main_v1 : FVec F S512x65536 .f32 := broadcastInDim S512x65536 ![] bcast_S_S512x65536 main_cst
  let main_v2 : IVec S512x65536 1 := cmpf .olt main_v0 main_v1
  let main_c : IVec S_ 1 := constantI S_ 1 1#1
  let main_v3 : IVec S_ 1 := (fun x v => Host.reduce IntOp.andi x v reducesTo_S512x65536_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S512x65536 : Shape := ⟨2, ![512, 65536]⟩
abbrev S65536 : Shape := ⟨1, ![65536]⟩
abbrev S4096 : Shape := ⟨1, ![4096]⟩
abbrev S1x65536 : Shape := ⟨2, ![1, 65536]⟩
abbrev S512x8192 : Shape := ⟨2, ![512, 8192]⟩
abbrev S1x8192 : Shape := ⟨2, ![1, 8192]⟩
abbrev S8192 : Shape := ⟨1, ![8192]⟩
abbrev S_ : Shape := ⟨0, ![]⟩
abbrev S65536x1 : Shape := ⟨2, ![65536, 1]⟩
abbrev S65536x3 : Shape := ⟨2, ![65536, 3]⟩
abbrev S4096x3 : Shape := ⟨2, ![4096, 3]⟩
abbrev S4096x1 : Shape := ⟨2, ![4096, 1]⟩
abbrev S4096x2 : Shape := ⟨2, ![4096, 2]⟩
abbrev S65536x2 : Shape := ⟨2, ![65536, 2]⟩
abbrev S512x4096 : Shape := ⟨2, ![512, 4096]⟩
abbrev S1x4096 : Shape := ⟨2, ![1, 4096]⟩
abbrev S512x65536x1 : Shape := ⟨3, ![512, 65536, 1]⟩

abbrev nBuf : Space → Nat
  | .hbm => 67
  | .vmem => 14
  | .smem => 0
  | _ => 0

abbrev bufTy : (tb : Table) → Fin (tcTables nBuf tb) → BufTy
  | .hbm, ⟨0, _⟩ => ⟨S512x65536, .f32⟩
  | .hbm, ⟨1, _⟩ => ⟨S65536, .i32⟩
  | .hbm, ⟨2, _⟩ => ⟨S4096, .f32⟩
  | .hbm, ⟨3, _⟩ => ⟨S4096, .f32⟩
  | .hbm, ⟨4, _⟩ => ⟨S1x65536, .f32⟩
  | .hbm, ⟨5, _⟩ => ⟨S1x65536, .f32⟩
  | .hbm, ⟨6, _⟩ => ⟨S65536, .f32⟩
  | .hbm, ⟨7, _⟩ => ⟨S65536, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S65536x1, .f32⟩
  | .hbm, ⟨12, _⟩ => ⟨S65536x1, .f32⟩
  | .hbm, ⟨13, _⟩ => ⟨S65536x3, .f32⟩
  | .hbm, ⟨14, _⟩ => ⟨S_, .f32⟩
  | .hbm, ⟨15, _⟩ => ⟨S4096x3, .f32⟩
  | .hbm, ⟨16, _⟩ => ⟨S65536x1, .i32⟩
  | .hbm, ⟨17, _⟩ => ⟨S4096x3, .f32⟩
  | .hbm, ⟨18, _⟩ => ⟨S4096x1, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096x1, .f32⟩
  | .hbm, ⟨27, _⟩ => ⟨S4096, .f32⟩
  | .hbm, ⟨28, _⟩ => ⟨S4096x1, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S4096x1, .f32⟩
  | .hbm, ⟨48, _⟩ => ⟨S4096x1, .f32⟩
  | .hbm, ⟨49, _⟩ => ⟨S4096x2, .f32⟩
  | .hbm, ⟨50, _⟩ => ⟨S_, .i32⟩
  | .hbm, ⟨51, _⟩ => ⟨S65536, .i32⟩
  | .hbm, ⟨52, _⟩ => ⟨S65536, .i1⟩
  | .hbm, ⟨53, _⟩ => ⟨S_, .i32⟩
  | .hbm, ⟨54, _⟩ => ⟨S65536, .i32⟩
  | .hbm, ⟨55, _⟩ => ⟨S65536, .i32⟩
  | .hbm, ⟨56, _⟩ => ⟨S65536, .i32⟩
  | .hbm, ⟨57, _⟩ => ⟨S65536x1, .i32⟩
  | .hbm, ⟨58, _⟩ => ⟨S65536x2, .f32⟩
  | .hbm, ⟨59, _⟩ => ⟨S65536x1, .f32⟩
  | .hbm, ⟨60, _⟩ => ⟨S65536, .f32⟩
  | .hbm, ⟨61, _⟩ => ⟨S1x65536, .f32⟩
  | .hbm, ⟨62, _⟩ => ⟨S65536x1, .f32⟩
  | .hbm, ⟨63, _⟩ => ⟨S65536, .f32⟩
  | .hbm, ⟨64, _⟩ => ⟨S1x65536, .f32⟩
  | .hbm, ⟨65, _⟩ => ⟨S512x65536, .f32⟩
  | .hbm, ⟨66, _⟩ => ⟨S512x65536x1, .f32⟩
  | .local _ .vmem, ⟨0, _⟩ => ⟨S512x8192, .f32⟩
  | .local _ .vmem, ⟨1, _⟩ => ⟨S512x8192, .f32⟩
  | .local _ .vmem, ⟨2, _⟩ => ⟨S1x8192, .f32⟩
  | .local _ .vmem, ⟨3, _⟩ => ⟨S1x8192, .f32⟩
  | .local _ .vmem, ⟨4, _⟩ => ⟨S1x8192, .f32⟩
  | .local _ .vmem, ⟨5, _⟩ => ⟨S1x8192, .f32⟩
  | .local _ .vmem, ⟨6, _⟩ => ⟨S512x4096, .f32⟩
  | .local _ .vmem, ⟨7, _⟩ => ⟨S512x4096, .f32⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S512x4096, .f32⟩
  | .local _ .vmem, ⟨13, _⟩ => ⟨S512x4096, .f32⟩
  | _, _ => ⟨S512x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x8192_S512x8192_0_0 : ∀ a, (![0, 0] : Fin 2 → Nat) a + S512x8192.size a ≤ S512x8192.size a
  h_S512x8192 : 0 < S512x8192.numel
  reduces_S512x8192_S8192 : S512x8192.Reduces [0] S8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x65536_S65536 : S1x65536.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x1_S65536x3_d1 : Shape.Concatenates [S65536x1, S65536x1, S65536x1] S65536x3 1
  bcast_S_S4096x3 : S_.BroadcastsInDim S4096x3 (![] : Fin 0 → Fin S4096x3.rank)
  slices_S4096x3_S4096x1_0_0 : S4096x3.Slices ![0, 0] S4096x1
  shapeCasts_S4096x1_S4096 : S4096x1.ShapeCasts S4096
  bcast_S_S4096 : S_.BroadcastsInDim S4096 (![] : Fin 0 → Fin S4096.rank)
  slices_S4096x3_S4096x1_0_1 : S4096x3.Slices ![0, 1] S4096x1
  slices_S4096x3_S4096x1_0_2 : S4096x3.Slices ![0, 2] S4096x1
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S65536x2_S65536x1_0_0 : S65536x2.Slices ![0, 0] S65536x1
  shapeCasts_S65536x1_S65536 : S65536x1.ShapeCasts S65536
  shapeCasts_S65536_S1x65536 : S65536.ShapeCasts S1x65536
  slices_S65536x2_S65536x1_0_1 : S65536x2.Slices ![0, 1] S65536x1
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  bcast_S512x65536_S512x65536x1_0_1 : S512x65536.BroadcastsInDim S512x65536x1 (![0, 1] : Fin 2 → Fin S512x65536x1.rank)
  scatter_S4096x3_S65536x1_S65536x3_1_0_0_1_wf : ScatterDims.WF S4096x3 S65536x1 S65536x3 [1] [0] [0] 1
  gather_S4096x2_S65536x1_S65536x2_1_0_n_n_0_1_12_wf : GatherDims.WF S4096x2 S65536x1 S65536x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S512x65536.size a
  hwx0_0 : ∀ i : grid0.Coords, EltTy.bits .f32 = 32 ∨ (Rect.block (s := S512x65536) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x65536.size a
  hwx0_1 : ∀ i : grid0.Coords, EltTy.bits .f32 = 32 ∨ (Rect.block (s := S1x65536) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x65536.size a
  hwx0_2 : ∀ i : grid0.Coords, EltTy.bits .f32 = 32 ∨ (Rect.block (s := S1x65536) S1x8192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S512x65536.size a
  hwx1_0 : ∀ i : grid1.Coords, EltTy.bits .f32 = 32 ∨ (Rect.block (s := S512x65536) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x65536.size a
  hwx1_1 : ∀ i : grid1.Coords, EltTy.bits .f32 = 32 ∨ (Rect.block (s := S1x65536) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x65536.size a
  hwx1_2 : ∀ i : grid1.Coords, EltTy.bits .f32 = 32 ∨ (Rect.block (s := S1x65536) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S512x65536.size a
  hwx1_3 : ∀ i : grid1.Coords, EltTy.bits .f32 = 32 ∨ (Rect.block (s := S512x65536) S512x4096.size (cc1_transform_3 i) (hinb1_3 i)).WholeWords (EltTy.packing .f32)

variable [Facts₀]

def scatter_S4096x3_S65536x1_S65536x3_1_0_0_1 : ScatterDims S4096x3 S65536x1 S65536x3 where
  updateWindowDims := [1]
  insertedWindowDims := [0]
  scatterDimsToOperandDims := [0]
  indexVectorDim := 1
  wf := scatter_S4096x3_S65536x1_S65536x3_1_0_0_1_wf
def gather_S4096x2_S65536x1_S65536x2_1_0_n_n_0_1_12 : GatherDims S4096x2 S65536x1 S65536x2 where
  offsetDims := [1]
  collapsedSliceDims := [0]
  operandBatchingDims := []
  startIndicesBatchingDims := []
  startIndexMap := [0]
  indexVectorDim := 1
  sliceSizes := ![1, 2]
  wf := gather_S4096x2_S65536x1_S65536x2_1_0_n_n_0_1_12_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x8192.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x65536 : Shape := ⟨2, ![512, 65536]⟩
abbrev S65536 : Shape := ⟨1, ![65536]⟩
abbrev S4096 : Shape := ⟨1, ![4096]⟩
abbrev S_ : Shape := ⟨0, ![]⟩
abbrev S65536x1 : Shape := ⟨2, ![65536, 1]⟩
abbrev S1x65536 : Shape := ⟨2, ![1, 65536]⟩
abbrev S512x65536x1 : Shape := ⟨3, ![512, 65536, 1]⟩

abbrev nBuf : Space → Nat
  | .hbm => 89
  | .vmem => 0
  | .smem => 0
  | _ => 0

abbrev bufTy : (tb : Table) → Fin (tcTables nBuf tb) → BufTy
  | .hbm, ⟨0, _⟩ => ⟨S512x65536, .f32⟩
  | .hbm, ⟨1, _⟩ => ⟨S65536, .i32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S65536, .f32⟩
  | .hbm, ⟨6, _⟩ => ⟨S_, .f32⟩
  | .hbm, ⟨7, _⟩ => ⟨S4096, .f32⟩
  | .hbm, ⟨8, _⟩ => ⟨S65536x1, .i32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S65536, .f32⟩
  | .hbm, ⟨18, _⟩ => ⟨S_, .f32⟩
  | .hbm, ⟨19, _⟩ => ⟨S4096, .f32⟩
  | .hbm, ⟨20, _⟩ => ⟨S65536x1, .i32⟩
  | .hbm, ⟨21, _⟩ => ⟨S4096, .f32⟩
  | .hbm, ⟨22, _⟩ => ⟨S512x65536, .f32⟩
  | .hbm, ⟨23, _⟩ => ⟨S_, .f32⟩
  | .hbm, ⟨24, _⟩ => ⟨S65536, .f32⟩
  | .hbm, ⟨25, _⟩ => ⟨S_, .f32⟩
  | .hbm, ⟨26, _⟩ => ⟨S4096, .f32⟩
  | .hbm, ⟨27, _⟩ => ⟨S65536x1, .i32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .i32⟩
  | .hbm, ⟨41, _⟩ => ⟨S65536, .i32⟩
  | .hbm, ⟨42, _⟩ => ⟨S65536, .i1⟩
  | .hbm, ⟨43, _⟩ => ⟨S_, .i32⟩
  | .hbm, ⟨44, _⟩ => ⟨S65536, .i32⟩
  | .hbm, ⟨45, _⟩ => ⟨S65536, .i32⟩
  | .hbm, ⟨46, _⟩ => ⟨S65536, .i32⟩
  | .hbm, ⟨47, _⟩ => ⟨S65536x1, .i32⟩
  | .hbm, ⟨48, _⟩ => ⟨S65536, .f32⟩
  | .hbm, ⟨49, _⟩ => ⟨S1x65536, .f32⟩
  | .hbm, ⟨50, _⟩ => ⟨S512x65536, .f32⟩
  | .hbm, ⟨51, _⟩ => ⟨S512x65536, .f32⟩
  | .hbm, ⟨52, _⟩ => ⟨S_, .i32⟩
  | .hbm, ⟨53, _⟩ => ⟨S65536, .i32⟩
  | .hbm, ⟨54, _⟩ => ⟨S65536, .i1⟩
  | .hbm, ⟨55, _⟩ => ⟨S_, .i32⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S65536x1, .i32⟩
  | .hbm, ⟨60, _⟩ => ⟨S65536, .f32⟩
  | .hbm, ⟨61, _⟩ => ⟨S1x65536, .f32⟩
  | .hbm, ⟨62, _⟩ => ⟨S512x65536, .f32⟩
  | .hbm, ⟨63, _⟩ => ⟨S512x65536, .f32⟩
  | .hbm, ⟨64, _⟩ => ⟨S_, .i32⟩
  | .hbm, ⟨65, _⟩ => ⟨S65536, .i32⟩
  | .hbm, ⟨66, _⟩ => ⟨S65536, .i1⟩
  | .hbm, ⟨67, _⟩ => ⟨S_, .i32⟩
  | .hbm, ⟨68, _⟩ => ⟨S65536, .i32⟩
  | .hbm, ⟨69, _⟩ => ⟨S65536, .i32⟩
  | .hbm, ⟨70, _⟩ => ⟨S65536, .i32⟩
  | .hbm, ⟨71, _⟩ => ⟨S65536x1, .i32⟩
  | .hbm, ⟨72, _⟩ => ⟨S65536, .f32⟩
  | .hbm, ⟨73, _⟩ => ⟨S1x65536, .f32⟩
  | .hbm, ⟨74, _⟩ => ⟨S512x65536, .f32⟩
  | .hbm, ⟨75, _⟩ => ⟨S512x65536, .f32⟩
  | .hbm, ⟨76, _⟩ => ⟨S_, .i32⟩
  | .hbm, ⟨77, _⟩ => ⟨S65536, .i32⟩
  | .hbm, ⟨78, _⟩ => ⟨S65536, .i1⟩
  | .hbm, ⟨79, _⟩ => ⟨S_, .i32⟩
  | .hbm, ⟨80, _⟩ => ⟨S65536, .i32⟩
  | .hbm, ⟨81, _⟩ => ⟨S65536, .i32⟩
  | .hbm, ⟨82, _⟩ => ⟨S65536, .i32⟩
  | .hbm, ⟨83, _⟩ => ⟨S65536x1, .i32⟩
  | .hbm, ⟨84, _⟩ => ⟨S65536, .f32⟩
  | .hbm, ⟨85, _⟩ => ⟨S1x65536, .f32⟩
  | .hbm, ⟨86, _⟩ => ⟨S512x65536, .f32⟩
  | .hbm, ⟨87, _⟩ => ⟨S512x65536, .f32⟩
  | .hbm, ⟨88, _⟩ => ⟨S512x65536x1, .f32⟩
  | _, _ => ⟨S512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_c_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_12 : Ref sig .tc := ⟨.hbm, 64, rfl⟩
abbrev main_v46 : Ref sig .tc := ⟨.hbm, 65, rfl⟩
abbrev main_v47 : Ref sig .tc := ⟨.hbm, 66, rfl⟩
abbrev main_c_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_14 : Ref sig .tc := ⟨.hbm, 76, rfl⟩
abbrev main_v56 : Ref sig .tc := ⟨.hbm, 77, rfl⟩
abbrev main_v57 : Ref sig .tc := ⟨.hbm, 78, rfl⟩
abbrev main_c_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S4096 : S_.BroadcastsInDim S4096 (![] : Fin 0 → Fin S4096.rank)
  bcast_S65536_S65536x1_0 : S65536.BroadcastsInDim S65536x1 (![0] : Fin 1 → Fin S65536x1.rank)
  reducesTo_S512x65536_S65536_d0 : S512x65536.ReducesTo [0] S65536
  h_S_ : 0 < S_.numel
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)
  bcast_S512x65536_S512x65536x1_0_1 : S512x65536.BroadcastsInDim S512x65536x1 (![0, 1] : Fin 2 → Fin S512x65536x1.rank)
  scatter_S4096_S65536x1_S65536_n_0_0_1_wf : ScatterDims.WF S4096 S65536x1 S65536 [] [0] [0] 1
  gather_S4096_S65536x1_S65536_n_0_n_n_0_1_1_wf : GatherDims.WF S4096 S65536x1 S65536 [] [0] [] [0] [] 1 ![1]

variable [Facts₀]

def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def gather_S4096_S65536x1_S65536_n_0_n_n_0_1_1 : GatherDims S4096 S65536x1 S65536 where
  offsetDims := []
  collapsedSliceDims := [0]
  operandBatchingDims := []
  startIndicesBatchingDims := []
  startIndexMap := [0]
  indexVectorDim := 1
  sliceSizes := ![1]
  wf := gather_S4096_S65536x1_S65536_n_0_n_n_0_1_1_wf

class Facts : Prop extends Facts₀ where

variable [Facts]
-- ==== Proof.KRegion0.lean ====
/-
  The first pass as a pipeline, at any float instance: eight grid points, each reading one block of 512 rows by
  8192 channels of the input array and writing one block of 1 by 8192 of each of two result arrays.  Stated at a
  parameter V, the contents of the unscoped buffers when the pass is entered: what each window's block holds at a
  point, what the body leaves in each output block (the column sums of the input block, and the column sums of its
  entrywise squares, as the body's two stored values), that the body run on whole blocks does exactly that, and the
  resulting body obligation of the pipeline.
-/
import proofs.«141373_j16836271800620_2_alg».proof.Proof.Gen.Kernel.Launch
import proofs.«141373_j16836271800620_2_alg».proof.Proof.Gen.Kernel.Skeleton
import proofs.«141373_j16836271800620_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current block is the array's block at every point, whenever the proof data's array is `V`'s
    and the body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles. -/
abbrev rIn0 : Rect S512x8192 := Rect.unit (s := S512x8192) ![0, 0] S512x8192.size inb_S512x8192_S512x8192_0_0
abbrev rOut0 : Rect S1x8192 := Rect.unit (s := S1x8192) ![0, 0] S1x8192.size inb_S1x8192_S1x8192_0_0

/-- What the body leaves in the first output block: the column sums of the input block, stored whole. -/
def out0_1 (x0 : Vec F S512x8192 .f32) : Vec F S1x8192 .f32 :=
  View.canon [⟨rOut0, k0_pay1 (View.ld x0 rIn0)⟩]
/-- What it leaves in the second: the column sums of the squares. -/
def out0_2 (x0 : Vec F S512x8192 .f32) : Vec F S1x8192 .f32 :=
  View.canon [⟨rOut0, k0_pay2 (View.ld x0 rIn0)⟩]

/-- One whole-block store covers the block. -/
theorem cover0 (p0 : Vec F S1x8192 .f32) (y : S1x8192.Idx) :
    ∃ pc ∈ ([⟨rOut0, p0⟩] : List (View.Piece (Elt F) S1x8192 .f32)), y ∈ pc.1.set :=
  View.cover_of_tiled [⟨rOut0, p0⟩] S1x8192.size (by rfl) y

set_option maxHeartbeats 1000000 in
/-- The body on whole blocks: the input block kept, each output block at its stored value. -/
theorem sound_kernel0 (c : Dev nD) (E : Set ℕ) (i : grid0.Coords) (arg1 : Memref sig .tc .vmem S512x8192 .f32) (harg1 : arg1.IsWhole)
    (arg2 : Memref sig .tc .vmem S1x8192 .f32) (harg2 : arg2.IsWhole) (arg3 : Memref sig .tc .vmem S1x8192 .f32) (harg3 : arg3.IsWhole)
    (x0 : Vec F S512x8192 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__stage_a_kernel i arg1 harg1 arg2 harg2 arg3 harg3) K := by
  simp only [cc0__stage_a_kernel_eq_skeleton]; unfold cc0__stage_a_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-- The pass's proof data on core `c`: the arrays as the pass finds them; after the body at point `t` the input block
    in place and each output block at its stored value; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KRegion1.lean ====
/-
  The second pass as a pipeline, at any float instance: sixteen grid points, each reading one block of 512 rows by
  4096 channels of the input array and one block of 1 by 4096 of each of the two per-channel rows, and writing one
  block of 512 by 4096 of the result.  Stated at a parameter V, the contents of the unscoped buffers when the pass is
  entered: each window's block at a point, what the body leaves in the output block (the input block times the first
  row plus the second, both rows repeated down the 512 rows — the body's one stored value), that the body run on whole
  blocks does exactly that, and the resulting body obligation of the pipeline.
-/
import proofs.«141373_j16836271800620_2_alg».proof.Proof.Gen.Kernel.Launch
import proofs.«141373_j16836271800620_2_alg».proof.Proof.Gen.Kernel.Skeleton
import proofs.«141373_j16836271800620_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current block is its array's block at every point, whenever the proof data's array is `V`'s
    and the body leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 512-by-4096 block and the whole 1-by-4096 block, as rectangles. -/
abbrev rBig1 : Rect S512x4096 := Rect.unit (s := S512x4096) ![0, 0] S512x4096.size inb_S512x4096_S512x4096_0_0
abbrev rRow1 : Rect S1x4096 := Rect.unit (s := S1x4096) ![0, 0] S1x4096.size inb_S1x4096_S1x4096_0_0

/-- What the body leaves in the output block: x · a + b with the two rows repeated down the block, stored whole. -/
def out1_3 (x0 : Vec F S512x4096 .f32) (x1 : Vec F S1x4096 .f32) (x2 : Vec F S1x4096 .f32) : Vec F S512x4096 .f32 :=
  View.canon [⟨rBig1, k1_pay1 (View.ld x0 rBig1) (View.ld x1 rRow1) (View.ld x2 rRow1)⟩]

/-- One whole-block store covers the block. -/
theorem cover1 (p0 : Vec F S512x4096 .f32) (y : S512x4096.Idx) :
    ∃ pc ∈ ([⟨rBig1, p0⟩] : List (View.Piece (Elt F) S512x4096 .f32)), y ∈ pc.1.set :=
  View.cover_of_tiled [⟨rBig1, p0⟩] S512x4096.size (by rfl) y

set_option maxHeartbeats 1000000 in
/-- The body on whole blocks: the three input blocks kept, the output block at its stored value. -/
theorem sound_kernel1 (c : Dev nD) (E : Set ℕ) (i : grid1.Coords) (arg1 : Memref sig .tc .vmem S512x4096 .f32) (harg1 : arg1.IsWhole)
    (arg2 : Memref sig .tc .vmem S1x4096 .f32) (harg2 : arg2.IsWhole) (arg3 : Memref sig .tc .vmem S1x4096 .f32) (harg3 : arg3.IsWhole)
    (arg4 : Memref sig .tc .vmem S512x4096 .f32) (harg4 : arg4.IsWhole)
    (x0 : Vec F S512x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__stage_c_kernel i arg1 harg1 arg2 harg2 arg3 harg3 arg4 harg4) K := by
  simp only [cc1__stage_c_kernel_eq_skeleton]; unfold cc1__stage_c_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The pass's proof data on core `c`: the arrays as the pass finds them; after the body at point `t` the input
    blocks in place and the output block at its stored value; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KRun.lean ====
/-
  The whole program as four segments in order — first pass, first host stretch, second pass, last host stretch — at
  any float instance.  The contents of every unscoped buffer at each of the five boundaries are named as a fold from
  the launch memory (a pass replaces its arrays by what its write-backs leave, a host stretch applies its operations),
  each argument array is read back through the fold to its launch contents, each pass is a segment entered from one
  boundary's contents and left at the next, and the run ends with EVERY unscoped buffer at the last boundary's
  contents: from that, the frame claim (the four arguments unchanged) and, for a value proof, the result array.
-/
import proofs.«141373_j16836271800620_2_alg».proof.Proof.KRegion0
import proofs.«141373_j16836271800620_2_alg».proof.Proof.KRegion1
import proofs.«141373_j16836271800620_2_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (the first pass's entry). -/
abbrev W0 : Dev nD → Valuation τ sig (Elt F) := fun c b => (s₀ m ρ).mem ((c : Dev nD), b)
abbrev VA : (c : Dev nD) → (b : Ref sig .tc) → Buf (Elt F) ((c : Thread nD τ).loc b) := fun c b => W0 m ρ c b
/-- After the first pass: its arrays at what its write-backs leave, every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VB : (c : Dev nD) → (b : Ref sig .tc) → Buf (Elt F) ((c : Thread nD τ).loc b) := fun c b => W1 m ρ c b
theorem hF0 (c : Dev nD) (w : Fin cfg0.W) : (dat0 (VA m ρ) c).arrAt w cfg0.N = VB m ρ c (Pipeline.arrRef spec0 w) :=
  (W1_arr m ρ c w).symm
theorem hrest0 (c : Dev nD) : ∀ b, b ∉ Finset.univ.image (Pipeline.arrRef spec0) → VB m ρ c b = VA m ρ c b :=
  fun b hb => W1_of_ne m ρ c b fun w e => hb (Finset.mem_image.mpr ⟨w, Finset.mem_univ _, e⟩)

/-- After the first host stretch (the second pass's entry). -/
abbrev W2 : Dev nD → Valuation τ sig (Elt F) := fun c => StableHlo.after hostOps1 (W1 m ρ c)
abbrev VC : (c : Dev nD) → (b : Ref sig .tc) → Buf (Elt F) ((c : Thread nD τ).loc b) := fun c b => W2 m ρ c b
/-- After the second pass. -/
def W3 (c : Dev nD) : Valuation τ sig (Elt F) :=
  Pipeline.withArrays spec1 c (W2 m ρ c) fun w => (dat1 (VC m ρ) c).arrAt w cfg1.N
theorem W3_arr (c : Dev nD) (w : Fin cfg1.W) :
    W3 m ρ c (Proc.devRef .tc (Pipeline.arrRef spec1 w)) = (dat1 (VC m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VD : (c : Dev nD) → (b : Ref sig .tc) → Buf (Elt F) ((c : Thread nD τ).loc b) := fun c b => W3 m ρ c b
theorem hF1 (c : Dev nD) (w : Fin cfg1.W) : (dat1 (VC m ρ) c).arrAt w cfg1.N = VD m ρ c (Pipeline.arrRef spec1 w) :=
  (W3_arr m ρ c w).symm
theorem hrest1 (c : Dev nD) : ∀ b, b ∉ Finset.univ.image (Pipeline.arrRef spec1) → VD m ρ c b = VC m ρ c b :=
  fun b hb => W3_of_ne m ρ c b fun w e => hb (Finset.mem_image.mpr ⟨w, Finset.mem_univ _, e⟩)
/-- After the last host stretch: the contents the program ends with. -/
abbrev W4 : Dev nD → Valuation τ sig (Elt F) := fun c => StableHlo.after hostOps2 (W3 m ρ c)

/-! The arguments end as launched: no host operation writes one, a pass only reads one. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide : main_arg0 ∉ hostOps2_W)
    _ = W2 m ρ c (Proc.devRef .tc main_arg0) := (W3_arr m ρ c 0).trans (((dat1 (VC m ρ) c).arrAt_in 0 rfl _).trans (A_eq1 (VC m ρ) c 0))
    _ = W1 m ρ c (Proc.devRef .tc main_arg0) := StableHlo.after_of_writes_sub hostOps1 _ hostOps1_writes (by decide : main_arg0 ∉ hostOps1_W)
    _ = W0 m ρ c (Proc.devRef .tc main_arg0) := (W1_arr m ρ c 0).trans (((dat0 (VA m ρ) c).arrAt_in 0 rfl _).trans (A_eq0 (VA m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := StableHlo.after_of_writes_sub hostOps1 _ hostOps1_writes (by decide : main_arg1 ∉ hostOps1_W)
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := StableHlo.after_of_writes_sub hostOps1 _ hostOps1_writes (by decide : main_arg2 ∉ hostOps1_W)
    _ = W0 m ρ c (Proc.devRef .tc main_arg2) := W1_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide : main_arg3 ∉ hostOps2_W)
    _ = W2 m ρ c (Proc.devRef .tc main_arg3) := W3_of_ne m ρ c main_arg3 (by decide)
    _ = W1 m ρ c (Proc.devRef .tc main_arg3) := StableHlo.after_of_writes_sub hostOps1 _ hostOps1_writes (by decide : main_arg3 ∉ hostOps1_W)
    _ = W0 m ρ c (Proc.devRef .tc main_arg3) := W1_of_ne m ρ c main_arg3 (by decide)
    _ = m ((c : Thread nD τ).loc main_arg3) := rfl

abbrev adm : (p : Fin 2) → (pcfgs (F := F) p).Adm := fun p => (cfgs p).toPCfg_adm
/-- Each pass's proof data at its own entry contents. -/
def pdats : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VC m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! The two passes as segments. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VB m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VC m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VC m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VC m ρ c) (VD m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the program runs to the end, nothing faulting, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Frm

end
-- ==== Proof.KIRegion0.lean ====
/-
  The first pass as a pipeline, at any float instance: eight grid points, each reading one block of 512 rows by
  8192 channels of the input array and writing one block of 1 by 8192 of each of two result arrays.  Stated at a
  parameter V, the contents of the unscoped buffers when the pass is entered: what each window's block holds at a
  point, what the body leaves in each output block (the column sums of the input block, and the column sums of its
  entrywise squares, as the body's two stored values), that the body run on whole blocks does exactly that, and the
  resulting body obligation of the pipeline.
-/
import proofs.«141373_j16836271800620_2_alg».proof.Proof.Gen.KernelIdeal.Launch
import proofs.«141373_j16836271800620_2_alg».proof.Proof.Gen.KernelIdeal.Skeleton
import proofs.«141373_j16836271800620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current block is the array's block at every point, whenever the proof data's array is `V`'s
    and the body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles. -/
abbrev rIn0 : Rect S512x8192 := Rect.unit (s := S512x8192) ![0, 0] S512x8192.size inb_S512x8192_S512x8192_0_0
abbrev rOut0 : Rect S1x8192 := Rect.unit (s := S1x8192) ![0, 0] S1x8192.size inb_S1x8192_S1x8192_0_0

/-- What the body leaves in the first output block: the column sums of the input block, stored whole. -/
def out0_1 (x0 : Vec F S512x8192 .f32) : Vec F S1x8192 .f32 :=
  View.canon [⟨rOut0, k0_pay1 (View.ld x0 rIn0)⟩]
/-- What it leaves in the second: the column sums of the squares. -/
def out0_2 (x0 : Vec F S512x8192 .f32) : Vec F S1x8192 .f32 :=
  View.canon [⟨rOut0, k0_pay2 (View.ld x0 rIn0)⟩]

/-- One whole-block store covers the block. -/
theorem cover0 (p0 : Vec F S1x8192 .f32) (y : S1x8192.Idx) :
    ∃ pc ∈ ([⟨rOut0, p0⟩] : List (View.Piece (Elt F) S1x8192 .f32)), y ∈ pc.1.set :=
  View.cover_of_tiled [⟨rOut0, p0⟩] S1x8192.size (by rfl) y

set_option maxHeartbeats 1000000 in
/-- The body on whole blocks: the input block kept, each output block at its stored value. -/
theorem sound_kernel0 (c : Dev nD) (E : Set ℕ) (i : grid0.Coords) (arg1 : Memref sig .tc .vmem S512x8192 .f32) (harg1 : arg1.IsWhole)
    (arg2 : Memref sig .tc .vmem S1x8192 .f32) (harg2 : arg2.IsWhole) (arg3 : Memref sig .tc .vmem S1x8192 .f32) (harg3 : arg3.IsWhole)
    (x0 : Vec F S512x8192 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__stage_a_kernel i arg1 harg1 arg2 harg2 arg3 harg3) K := by
  simp only [cc0__stage_a_kernel_eq_skeleton]; unfold cc0__stage_a_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-- The pass's proof data on core `c`: the arrays as the pass finds them; after the body at point `t` the input block
    in place and each output block at its stored value; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KIRegion1.lean ====
/-
  The second pass as a pipeline, at any float instance: sixteen grid points, each reading one block of 512 rows by
  4096 channels of the input array and one block of 1 by 4096 of each of the two per-channel rows, and writing one
  block of 512 by 4096 of the result.  Stated at a parameter V, the contents of the unscoped buffers when the pass is
  entered: each window's block at a point, what the body leaves in the output block (the input block times the first
  row plus the second, both rows repeated down the 512 rows — the body's one stored value), that the body run on whole
  blocks does exactly that, and the resulting body obligation of the pipeline.
-/
import proofs.«141373_j16836271800620_2_alg».proof.Proof.Gen.KernelIdeal.Launch
import proofs.«141373_j16836271800620_2_alg».proof.Proof.Gen.KernelIdeal.Skeleton
import proofs.«141373_j16836271800620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current block is its array's block at every point, whenever the proof data's array is `V`'s
    and the body leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 512-by-4096 block and the whole 1-by-4096 block, as rectangles. -/
abbrev rBig1 : Rect S512x4096 := Rect.unit (s := S512x4096) ![0, 0] S512x4096.size inb_S512x4096_S512x4096_0_0
abbrev rRow1 : Rect S1x4096 := Rect.unit (s := S1x4096) ![0, 0] S1x4096.size inb_S1x4096_S1x4096_0_0

/-- What the body leaves in the output block: x · a + b with the two rows repeated down the block, stored whole. -/
def out1_3 (x0 : Vec F S512x4096 .f32) (x1 : Vec F S1x4096 .f32) (x2 : Vec F S1x4096 .f32) : Vec F S512x4096 .f32 :=
  View.canon [⟨rBig1, k1_pay1 (View.ld x0 rBig1) (View.ld x1 rRow1) (View.ld x2 rRow1)⟩]

/-- One whole-block store covers the block. -/
theorem cover1 (p0 : Vec F S512x4096 .f32) (y : S512x4096.Idx) :
    ∃ pc ∈ ([⟨rBig1, p0⟩] : List (View.Piece (Elt F) S512x4096 .f32)), y ∈ pc.1.set :=
  View.cover_of_tiled [⟨rBig1, p0⟩] S512x4096.size (by rfl) y

set_option maxHeartbeats 1000000 in
/-- The body on whole blocks: the three input blocks kept, the output block at its stored value. -/
theorem sound_kernel1 (c : Dev nD) (E : Set ℕ) (i : grid1.Coords) (arg1 : Memref sig .tc .vmem S512x4096 .f32) (harg1 : arg1.IsWhole)
    (arg2 : Memref sig .tc .vmem S1x4096 .f32) (harg2 : arg2.IsWhole) (arg3 : Memref sig .tc .vmem S1x4096 .f32) (harg3 : arg3.IsWhole)
    (arg4 : Memref sig .tc .vmem S512x4096 .f32) (harg4 : arg4.IsWhole)
    (x0 : Vec F S512x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__stage_c_kernel i arg1 harg1 arg2 harg2 arg3 harg3 arg4 harg4) K := by
  simp only [cc1__stage_c_kernel_eq_skeleton]; unfold cc1__stage_c_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The pass's proof data on core `c`: the arrays as the pass finds them; after the body at point `t` the input
    blocks in place and the output block at its stored value; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KIRun.lean ====
/-
  The whole program as four segments in order — first pass, first host stretch, second pass, last host stretch — at
  any float instance.  The contents of every unscoped buffer at each of the five boundaries are named as a fold from
  the launch memory (a pass replaces its arrays by what its write-backs leave, a host stretch applies its operations),
  each argument array is read back through the fold to its launch contents, each pass is a segment entered from one
  boundary's contents and left at the next, and the run ends with EVERY unscoped buffer at the last boundary's
  contents: from that, the frame claim (the four arguments unchanged) and, for a value proof, the result array.
-/
import proofs.«141373_j16836271800620_2_alg».proof.Proof.KIRegion0
import proofs.«141373_j16836271800620_2_alg».proof.Proof.KIRegion1
import proofs.«141373_j16836271800620_2_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (the first pass's entry). -/
abbrev W0 : Dev nD → Valuation τ sig (Elt F) := fun c b => (s₀ m ρ).mem ((c : Dev nD), b)
abbrev VA : (c : Dev nD) → (b : Ref sig .tc) → Buf (Elt F) ((c : Thread nD τ).loc b) := fun c b => W0 m ρ c b
/-- After the first pass: its arrays at what its write-backs leave, every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VB : (c : Dev nD) → (b : Ref sig .tc) → Buf (Elt F) ((c : Thread nD τ).loc b) := fun c b => W1 m ρ c b
theorem hF0 (c : Dev nD) (w : Fin cfg0.W) : (dat0 (VA m ρ) c).arrAt w cfg0.N = VB m ρ c (Pipeline.arrRef spec0 w) :=
  (W1_arr m ρ c w).symm
theorem hrest0 (c : Dev nD) : ∀ b, b ∉ Finset.univ.image (Pipeline.arrRef spec0) → VB m ρ c b = VA m ρ c b :=
  fun b hb => W1_of_ne m ρ c b fun w e => hb (Finset.mem_image.mpr ⟨w, Finset.mem_univ _, e⟩)

/-- After the first host stretch (the second pass's entry). -/
abbrev W2 : Dev nD → Valuation τ sig (Elt F) := fun c => StableHlo.after hostOps1 (W1 m ρ c)
abbrev VC : (c : Dev nD) → (b : Ref sig .tc) → Buf (Elt F) ((c : Thread nD τ).loc b) := fun c b => W2 m ρ c b
/-- After the second pass. -/
def W3 (c : Dev nD) : Valuation τ sig (Elt F) :=
  Pipeline.withArrays spec1 c (W2 m ρ c) fun w => (dat1 (VC m ρ) c).arrAt w cfg1.N
theorem W3_arr (c : Dev nD) (w : Fin cfg1.W) :
    W3 m ρ c (Proc.devRef .tc (Pipeline.arrRef spec1 w)) = (dat1 (VC m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VD : (c : Dev nD) → (b : Ref sig .tc) → Buf (Elt F) ((c : Thread nD τ).loc b) := fun c b => W3 m ρ c b
theorem hF1 (c : Dev nD) (w : Fin cfg1.W) : (dat1 (VC m ρ) c).arrAt w cfg1.N = VD m ρ c (Pipeline.arrRef spec1 w) :=
  (W3_arr m ρ c w).symm
theorem hrest1 (c : Dev nD) : ∀ b, b ∉ Finset.univ.image (Pipeline.arrRef spec1) → VD m ρ c b = VC m ρ c b :=
  fun b hb => W3_of_ne m ρ c b fun w e => hb (Finset.mem_image.mpr ⟨w, Finset.mem_univ _, e⟩)
/-- After the last host stretch: the contents the program ends with. -/
abbrev W4 : Dev nD → Valuation τ sig (Elt F) := fun c => StableHlo.after hostOps2 (W3 m ρ c)

/-! The arguments end as launched: no host operation writes one, a pass only reads one. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide : main_arg0 ∉ hostOps2_W)
    _ = W2 m ρ c (Proc.devRef .tc main_arg0) := (W3_arr m ρ c 0).trans (((dat1 (VC m ρ) c).arrAt_in 0 rfl _).trans (A_eq1 (VC m ρ) c 0))
    _ = W1 m ρ c (Proc.devRef .tc main_arg0) := StableHlo.after_of_writes_sub hostOps1 _ hostOps1_writes (by decide : main_arg0 ∉ hostOps1_W)
    _ = W0 m ρ c (Proc.devRef .tc main_arg0) := (W1_arr m ρ c 0).trans (((dat0 (VA m ρ) c).arrAt_in 0 rfl _).trans (A_eq0 (VA m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := StableHlo.after_of_writes_sub hostOps1 _ hostOps1_writes (by decide : main_arg1 ∉ hostOps1_W)
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := StableHlo.after_of_writes_sub hostOps1 _ hostOps1_writes (by decide : main_arg2 ∉ hostOps1_W)
    _ = W0 m ρ c (Proc.devRef .tc main_arg2) := W1_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide : main_arg3 ∉ hostOps2_W)
    _ = W2 m ρ c (Proc.devRef .tc main_arg3) := W3_of_ne m ρ c main_arg3 (by decide)
    _ = W1 m ρ c (Proc.devRef .tc main_arg3) := StableHlo.after_of_writes_sub hostOps1 _ hostOps1_writes (by decide : main_arg3 ∉ hostOps1_W)
    _ = W0 m ρ c (Proc.devRef .tc main_arg3) := W1_of_ne m ρ c main_arg3 (by decide)
    _ = m ((c : Thread nD τ).loc main_arg3) := rfl

abbrev adm : (p : Fin 2) → (pcfgs (F := F) p).Adm := fun p => (cfgs p).toPCfg_adm
/-- Each pass's proof data at its own entry contents. -/
def pdats : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VC m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! The two passes as segments. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VB m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VC m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VC m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VC m ρ c) (VD m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the program runs to the end, nothing faulting, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Frm

end
-- ==== Proof.Spec.lean ====
/-
  Group normalisation over channel groups, as a function of the input arrays, on the extended reals.

  The input is an array X of 512 rows and 65536 channels, an integer vector cg giving each channel a group
  number, and per-group scale γ and shift β (4096 groups).  A channel c is a MEMBER of group g when its group
  number, read as a signed integer, is exactly g; a channel whose number is outside 0 … 4095 is a member of no
  group.  Per group: the count of members times 512 (at least 1), the sum S1 of all entries of the member
  columns, the sum S2 of their squares, mean = S1 / count, var = S2 / count − mean².  Every channel is then
  normalised with the statistics of the group gi c that a second index function assigns to it (in the programs:
  the group number wrapped once if negative, then clamped into range).

  Two arrangements of the final formula are stated: the one that first folds scale and shift into a pair
  (a, b) per group and clamps the variance at zero from below, and the one that normalises first and then scales
  and shifts, with no clamp.  The constants are kept as the binary32 patterns both programs print.
-/
import Idealize.ShloMosaic.PureOps.Ideal
import Idealize.ShloMosaic.Lib.ValueIdx

noncomputable section

namespace Cert.GroupNorm

open Idealize.ShloMosaic Idealize.ShloMosaic.ValueIdx

abbrev SX : Shape := ⟨2, ![512, 65536]⟩
abbrev SC : Shape := ⟨1, ![65536]⟩
abbrev SG : Shape := ⟨1, ![4096]⟩

/-- The patterns of 1.0, 512.0, 0.0 and the variance's epsilon (binary32 nearest 1e-5). -/
def one : EReal := Ideal.ofBits .f32 0x3F800000#32
def c512 : EReal := Ideal.ofBits .f32 0x44000000#32
def zero : EReal := Ideal.ofBits .f32 0x00000000#32
def eps : EReal := Ideal.ofBits .f32 0x3727C5AC#32

/-- Channel `c` is a member of group `g`: its group number read signed is exactly `g`. -/
def members (cg : IVec SC 32) (g : Fin 4096) : Finset (Fin 65536) :=
  Finset.univ.filter fun c => (cg (ix1 c)).toInt = (g.val : Int)

/-- The sum of column `c`, and of its squares. -/
def colSum (X : SX.Idx → EReal) (c : Fin 65536) : EReal := ∑ b : Fin 512, X (ix2 b c)
def colSq (X : SX.Idx → EReal) (c : Fin 65536) : EReal := ∑ b : Fin 512, X (ix2 b c) * X (ix2 b c)

/-- Per group: number of member channels, sum of entries, sum of squares. -/
def cnt (cg : IVec SC 32) (g : Fin 4096) : EReal := ∑ _c ∈ members cg g, one
def s1 (X : SX.Idx → EReal) (cg : IVec SC 32) (g : Fin 4096) : EReal := ∑ c ∈ members cg g, colSum X c
def s2 (X : SX.Idx → EReal) (cg : IVec SC 32) (g : Fin 4096) : EReal := ∑ c ∈ members cg g, colSq X c

/-- Number of entries of the group, at least one. -/
def counts (cg : IVec SC 32) (g : Fin 4096) : EReal := max (cnt cg g * c512) one
def mean (X : SX.Idx → EReal) (cg : IVec SC 32) (g : Fin 4096) : EReal := Ideal.div (s1 X cg g) (counts cg g)
def var (X : SX.Idx → EReal) (cg : IVec SC 32) (g : Fin 4096) : EReal :=
  Ideal.div (s2 X cg g) (counts cg g) - mean X cg g * mean X cg g
/-- The reciprocal standard deviation, the variance as it is, -/
def invR (X : SX.Idx → EReal) (cg : IVec SC 32) (g : Fin 4096) : EReal :=
  Ideal.div one (Ideal.sqrt (var X cg g + eps))
/-- and the variance clamped at zero from below. -/
def invK (X : SX.Idx → EReal) (cg : IVec SC 32) (g : Fin 4096) : EReal :=
  Ideal.div one (Ideal.sqrt (max (var X cg g) zero + eps))

/-- The folded pair per group: a = γ · inv, b = β − mean · a. -/
def aG (X : SX.Idx → EReal) (cg : IVec SC 32) (γ : SG.Idx → EReal) (g : Fin 4096) : EReal := γ (ix1 g) * invK X cg g
def bG (X : SX.Idx → EReal) (cg : IVec SC 32) (γ β : SG.Idx → EReal) (g : Fin 4096) : EReal :=
  β (ix1 g) - mean X cg g * aG X cg γ g

/-- The folded arrangement: x · a + b at the channel's group. -/
def foldedOut (X : SX.Idx → EReal) (cg : IVec SC 32) (γ β : SG.Idx → EReal) (gi : Fin 65536 → Fin 4096)
    (b : Fin 512) (c : Fin 65536) : EReal :=
  X (ix2 b c) * aG X cg γ (gi c) + bG X cg γ β (gi c)

/-- The plain arrangement: ((x − mean) · inv) · γ + β at the channel's group. -/
def plainOut (X : SX.Idx → EReal) (cg : IVec SC 32) (γ β : SG.Idx → EReal) (gi : Fin 65536 → Fin 4096)
    (b : Fin 512) (c : Fin 65536) : EReal :=
  (X (ix2 b c) - mean X cg (gi c)) * invR X cg (gi c) * γ (ix1 (gi c)) + β (ix1 (gi c))

/-- A group number wrapped once: a negative number has 4096 added (32-bit arithmetic), any other is kept. -/
def wrapIdx (cg : IVec SC 32) : IVec SC 32 := fun i =>
  Scalar.select (IntOp.cmpi .slt (cg i) 0#32) (IntOp.addi (cg i) 4096#32) (cg i)

/-- The group a channel reads its statistics from: its (already wrapped) number read signed, clamped into 0 … 4095. -/
def clampIdx (wi : IVec SC 32) (c : Fin 65536) : Fin 4096 :=
  ⟨min (wi (ix1 c)).toInt.toNat 4095, by omega⟩

end Cert.GroupNorm

end
-- ==== Proof.KIValue0.lean ====
/-
  What the first pass leaves in its two result arrays, on the extended reals: entry (0, q) of the first is the sum of
  column q of the input array, and of the second the sum of that column's squares.  A grid point t reads the block of
  all 512 rows and channels 8192·t … 8192·t + 8191 and writes back the same channels of each result row; the eight
  blocks tile the row, so the array after the pass is that one function of the input array everywhere.
-/
import proofs.«141373_j16836271800620_2_alg».proof.Proof.KIRegion0
import proofs.«141373_j16836271800620_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- Column sums of a block, as a [1, 8192] row. -/
theorem pay1_apply (v0 : Vec Ideal S512x8192 .f32) (q : Fin 8192) :
    k0_pay1 (F := Ideal) v0 (ix2 0 q) = ∑ b : Fin 512, v0 (ix2 b q) := by
  unfold k0_pay1
  rw [shapeCast_a_1a_apply]
  refine (Ideal.multiReduction_add_single v0 0x00000000#32 reduces_S512x8192_S8192 (.inl rfl) rfl (ix1 q)).trans ?_
  refine Finset.sum_congr rfl fun b _ => congrArg v0 ?_
  funext a; match a with | ⟨0, _⟩ => rfl | ⟨1, _⟩ => rfl

/-- Column sums of the squares of a block. -/
theorem pay2_apply (v0 : Vec Ideal S512x8192 .f32) (q : Fin 8192) :
    k0_pay2 (F := Ideal) v0 (ix2 0 q) = ∑ b : Fin 512, v0 (ix2 b q) * v0 (ix2 b q) := by
  unfold k0_pay2
  rw [shapeCast_a_1a_apply]
  refine (Ideal.multiReduction_add_single (mulf v0 v0) 0x00000000#32 reduces_S512x8192_S8192 (.inl rfl) rfl (ix1 q)).trans ?_
  refine Finset.sum_congr rfl fun b _ => ?_
  have e : (reduces_S512x8192_S8192.lift (ix1 q) b : S512x8192.Idx) = ix2 b q := by
    funext a; match a with | ⟨0, _⟩ => rfl | ⟨1, _⟩ => rfl
  rw [e]; rfl

variable (V : (c : Dev nD) → (b : Ref sig .tc) → Buf (Elt Ideal) ((c : Thread nD τ).loc b))

theorem hz2 : (![0, 0] : Fin 2 → Nat) = fun _ => 0 := funext fun a => by fin_cases a <;> rfl

/-- The row of column sums of an array, and of the column sums of its squares. -/
def colSums (X : S512x65536.Idx → EReal) : S1x65536.Idx → EReal := fun i => ∑ b : Fin 512, X (ix2 b (i 1))
def colSqs (X : S512x65536.Idx → EReal) : S1x65536.Idx → EReal := fun i => ∑ b : Fin 512, X (ix2 b (i 1)) * X (ix2 b (i 1))

/-- The printed index maps over the eight points: every window is at block row 0 and block column t. -/
theorem idx_facts0 : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Entry (b, q) of the input block at point t is entry (b, 8192·t + q) of the input array. -/
theorem iblk0_apply (c : Dev nD) (t : Fin cfg0.N) (b : Fin 512) (q : Fin 8192) :
    iblk0 V c 0 t (ix2 b q) = V c main_arg0 (ix2 b ⟨t.val * 8192 + q.val, by have := t.isLt; have : cfg0.N = 8 := N_0; omega⟩) := by
  obtain ⟨e0, e1, -⟩ := idx_facts0 t
  show V c main_arg0 (((cfg0.win 0).blk t).view.emb (ix2 b q)) = _
  refine congrArg (V c main_arg0) ?_
  funext a; apply Fin.ext
  match a with
  | ⟨0, _⟩ => show win0_0.index t (0 : Fin 2) * 512 + 1 * b.val = b.val; omega
  | ⟨1, _⟩ => show win0_0.index t (1 : Fin 2) * 8192 + 1 * q.val = t.val * 8192 + q.val; omega

/-- What point t writes back into the first result row is block t of the row of column sums. -/
theorem flushed0_1_eq (c : Dev nD) (t : Fin cfg0.N) :
    (dat0 V c).flushed 1 t = ((cfg0.win 1).blk t).view.read (Elt Ideal) (colSums (V c main_arg0)) := by
  show (cfg0.win 1).cut (grid0.coords t) ((dat0 V c).after 1 t) = _
  rw [after0_1]
  unfold out0_1
  rw [View.canon_unit_zero hz2]
  simp only [View.ld_unit_zero (S := S512x8192) hz2]
  obtain ⟨-, -, e2, e3, -⟩ := idx_facts0 t
  funext j
  obtain ⟨p, q, rfl⟩ : ∃ (p : Fin 1) (q : Fin 8192), j = ix2 p q := ⟨j 0, j 1, eq_ix2 j⟩
  obtain rfl : p = 0 := Subsingleton.elim _ _
  refine (pay1_apply _ q).trans ?_
  show _ = colSums (V c main_arg0) (((cfg0.win 1).blk t).view.emb (ix2 0 q))
  unfold colSums
  refine Finset.sum_congr rfl fun b _ => ?_
  rw [iblk0_apply]
  refine congrArg (V c main_arg0) ?_
  funext a; apply Fin.ext
  match a with
  | ⟨0, _⟩ => rfl
  | ⟨1, _⟩ => show t.val * 8192 + q.val = win0_1.index t (1 : Fin 2) * 8192 + 1 * q.val; omega

/-- The same for the second result row and the column sums of squares. -/
theorem flushed0_2_eq (c : Dev nD) (t : Fin cfg0.N) :
    (dat0 V c).flushed 2 t = ((cfg0.win 2).blk t).view.read (Elt Ideal) (colSqs (V c main_arg0)) := by
  show (cfg0.win 2).cut (grid0.coords t) ((dat0 V c).after 2 t) = _
  rw [after0_2]
  unfold out0_2
  rw [View.canon_unit_zero hz2]
  simp only [View.ld_unit_zero (S := S512x8192) hz2]
  obtain ⟨-, -, -, -, e4, e5⟩ := idx_facts0 t
  funext j
  obtain ⟨p, q, rfl⟩ : ∃ (p : Fin 1) (q : Fin 8192), j = ix2 p q := ⟨j 0, j 1, eq_ix2 j⟩
  obtain rfl : p = 0 := Subsingleton.elim _ _
  refine (pay2_apply _ q).trans ?_
  show _ = colSqs (V c main_arg0) (((cfg0.win 2).blk t).view.emb (ix2 0 q))
  unfold colSqs
  refine Finset.sum_congr rfl fun b _ => ?_
  rw [iblk0_apply]
  have e : (ix2 b ⟨t.val * 8192 + q.val, by have := t.isLt; have : cfg0.N = 8 := N_0; omega⟩ : S512x65536.Idx)
      = ix2 b ((((cfg0.win 2).blk t).view.emb (ix2 0 q)) 1) := by
    funext a; apply Fin.ext
    match a with
    | ⟨0, _⟩ => rfl
    | ⟨1, _⟩ => show t.val * 8192 + q.val = win0_2.index t (1 : Fin 2) * 8192 + 1 * q.val; omega
  rw [e]
  rfl

/-- An index of a result row is in point t's block iff each coordinate is in the block's range. -/
theorem mem_blk0_1 (t : Fin cfg0.N) (i : S1x65536.Idx) :
    i ∈ ((cfg0.win 1).blk t).view.set ↔ ∀ a : Fin 2, win0_1.index t a * S1x8192.size a ≤ (i a).val ∧ (i a).val < win0_1.index t a * S1x8192.size a + S1x8192.size a := by
  show i ∈ ((View.whole main_v0_0).slice (win0_1.rect t)).set ↔ _
  rw [View.set_slice_whole, Rect.mem_set_unit]
  exact Iff.rfl
theorem mem_blk0_2 (t : Fin cfg0.N) (i : S1x65536.Idx) :
    i ∈ ((cfg0.win 2).blk t).view.set ↔ ∀ a : Fin 2, win0_2.index t a * S1x8192.size a ≤ (i a).val ∧ (i a).val < win0_2.index t a * S1x8192.size a + S1x8192.size a := by
  show i ∈ ((View.whole main_v0_1).slice (win0_2.rect t)).set ↔ _
  rw [View.set_slice_whole, Rect.mem_set_unit]
  exact Iff.rfl

/-- Channel k lies in the block of point k / 8192. -/
theorem cover0_1 (i : S1x65536.Idx) : ∃ t : Fin cfg0.N, (cfg0.win 1).flush t = true ∧ i ∈ ((cfg0.win 1).blk t).view.set := by
  have hi0 : (i 0).val < 1 := (i 0).isLt
  have hi1 : (i 1).val < 65536 := (i 1).isLt
  have hN : cfg0.N = 8 := N_0
  let t : Fin cfg0.N := ⟨(i 1).val / 8192, by omega⟩
  obtain ⟨-, -, e2, e3, -⟩ := idx_facts0 t
  have ht : t.val = (i 1).val / 8192 := rfl
  refine ⟨t, flush0_1 t, ?_⟩
  rw [mem_blk0_1]
  intro a
  match a with
  | ⟨0, _⟩ => show win0_1.index t (0 : Fin 2) * 1 ≤ (i 0).val ∧ (i 0).val < win0_1.index t (0 : Fin 2) * 1 + 1; omega
  | ⟨1, _⟩ => show win0_1.index t (1 : Fin 2) * 8192 ≤ (i 1).val ∧ (i 1).val < win0_1.index t (1 : Fin 2) * 8192 + 8192; omega
theorem cover0_2 (i : S1x65536.Idx) : ∃ t : Fin cfg0.N, (cfg0.win 2).flush t = true ∧ i ∈ ((cfg0.win 2).blk t).view.set := by
  have hi0 : (i 0).val < 1 := (i 0).isLt
  have hi1 : (i 1).val < 65536 := (i 1).isLt
  have hN : cfg0.N = 8 := N_0
  let t : Fin cfg0.N := ⟨(i 1).val / 8192, by omega⟩
  obtain ⟨-, -, -, -, e4, e5⟩ := idx_facts0 t
  have ht : t.val = (i 1).val / 8192 := rfl
  refine ⟨t, flush0_2 t, ?_⟩
  rw [mem_blk0_2]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 8192 ≤ (i 1).val ∧ (i 1).val < win0_2.index t (1 : Fin 2) * 8192 + 8192; omega

/-- After the pass the two result rows hold the column sums and the column sums of squares of the input array. -/
theorem final0_1 (c : Dev nD) : (dat0 V c).arrAt 1 cfg0.N = colSums (V c main_arg0) :=
  (dat0 V c).arrAt_eq_of_cover 1 (colSums (V c main_arg0)) (fun t _ => flushed0_1_eq V c t) cover0_1
theorem final0_2 (c : Dev nD) : (dat0 V c).arrAt 2 cfg0.N = colSqs (V c main_arg0) :=
  (dat0 V c).arrAt_eq_of_cover 2 (colSqs (V c main_arg0)) (fun t _ => flushed0_2_eq V c t) cover0_2

end Cert.KernelIdeal.Frm

end
-- ==== Proof.KIValue1.lean ====
/-
  What the second pass leaves in its result array, on the extended reals: entry (b, k) is x(b, k) · a(0, k) + b(0, k),
  where x is the input array and a, b the two per-channel rows the pass reads.  A grid point t reads rows 0 … 511 and
  channels 4096·t … 4096·t + 4095 of all three and writes back the same block of the result; the sixteen blocks tile the
  array, so after the pass it is that one function of the three arrays everywhere.
-/
import proofs.«141373_j16836271800620_2_alg».proof.Proof.KIRegion1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's stored value at (b, q): the input block's entry times the first row's plus the second row's. -/
theorem pay_affine_apply (v0 : Vec Ideal S512x4096 .f32) (v1 v5 : Vec Ideal S1x4096 .f32) (b : Fin 512) (q : Fin 4096) :
    k1_pay1 (F := Ideal) v0 v1 v5 (ix2 b q) = v0 (ix2 b q) * v1 (ix2 0 q) + v5 (ix2 0 q) := by
  unfold k1_pay1
  rw [shapeCast_self, shapeCast_self]
  show v0 (ix2 b q) * broadcastTo S512x4096 v1 broadcasts_S1x4096_S512x4096 (ix2 b q)
      + broadcastTo S512x4096 v5 broadcasts_S1x4096_S512x4096 (ix2 b q) = _
  rw [broadcastTo_1b_ab_apply, broadcastTo_1b_ab_apply]

variable (V : (c : Dev nD) → (b : Ref sig .tc) → Buf (Elt Ideal) ((c : Thread nD τ).loc b))

theorem hz2' : (![0, 0] : Fin 2 → Nat) = fun _ => 0 := funext fun a => by fin_cases a <;> rfl

/-- x · a + b with the rows a, b repeated down the rows of x. -/
def affineRows (X : S512x65536.Idx → EReal) (A B : S1x65536.Idx → EReal) : S512x65536.Idx → EReal :=
  fun i => X i * A (ix2 0 (i 1)) + B (ix2 0 (i 1))

/-- The printed index maps over the sixteen points: every window is at block row 0 and block column t. -/
theorem idx_facts1 : ∀ t : Fin cfg1.N, win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The three input blocks at point t, entry by entry, as entries of their arrays. -/
theorem iblk1_0_apply (c : Dev nD) (t : Fin cfg1.N) (p : Fin 512) (q : Fin 4096) :
    iblk1 V c 0 t (ix2 p q) = V c main_arg0 (ix2 p ⟨t.val * 4096 + q.val, by have := t.isLt; have : cfg1.N = 16 := N_1; omega⟩) := by
  obtain ⟨e0, e1, -⟩ := idx_facts1 t
  show V c main_arg0 (((cfg1.win 0).blk t).view.emb (ix2 p q)) = _
  refine congrArg (V c main_arg0) ?_
  funext a; apply Fin.ext
  match a with
  | ⟨0, _⟩ => show win1_0.index t (0 : Fin 2) * 512 + 1 * p.val = p.val; omega
  | ⟨1, _⟩ => show win1_0.index t (1 : Fin 2) * 4096 + 1 * q.val = t.val * 4096 + q.val; omega
theorem iblk1_1_apply (c : Dev nD) (t : Fin cfg1.N) (q : Fin 4096) :
    iblk1 V c 1 t (ix2 0 q) = V c main_v47 (ix2 0 ⟨t.val * 4096 + q.val, by have := t.isLt; have : cfg1.N = 16 := N_1; omega⟩) := by
  obtain ⟨-, -, e2, e3, -⟩ := idx_facts1 t
  show V c main_v47 (((cfg1.win 1).blk t).view.emb (ix2 0 q)) = _
  refine congrArg (V c main_v47) ?_
  funext a; apply Fin.ext
  match a with
  | ⟨0, _⟩ => show win1_1.index t (0 : Fin 2) * 1 + 1 * 0 = 0; omega
  | ⟨1, _⟩ => show win1_1.index t (1 : Fin 2) * 4096 + 1 * q.val = t.val * 4096 + q.val; omega
theorem iblk1_2_apply (c : Dev nD) (t : Fin cfg1.N) (q : Fin 4096) :
    iblk1 V c 2 t (ix2 0 q) = V c main_v50 (ix2 0 ⟨t.val * 4096 + q.val, by have := t.isLt; have : cfg1.N = 16 := N_1; omega⟩) := by
  obtain ⟨-, -, -, -, e4, e5, -⟩ := idx_facts1 t
  show V c main_v50 (((cfg1.win 2).blk t).view.emb (ix2 0 q)) = _
  refine congrArg (V c main_v50) ?_
  funext a; apply Fin.ext
  match a with
  | ⟨0, _⟩ => show win1_2.index t (0 : Fin 2) * 1 + 1 * 0 = 0; omega
  | ⟨1, _⟩ => show win1_2.index t (1 : Fin 2) * 4096 + 1 * q.val = t.val * 4096 + q.val; omega
/-- Entry (p, q) of the output block at point t sits at (p, 4096·t + q) of the result array. -/
theorem emb1_3_apply (t : Fin cfg1.N) (p : Fin 512) (q : Fin 4096) :
    (((cfg1.win 3).blk t).view.emb (ix2 p q) : S512x65536.Idx) = ix2 p ⟨t.val * 4096 + q.val, by have := t.isLt; have : cfg1.N = 16 := N_1; omega⟩ := by
  obtain ⟨-, -, -, -, -, -, e6, e7⟩ := idx_facts1 t
  funext a; apply Fin.ext
  match a with
  | ⟨0, _⟩ => show win1_3.index t (0 : Fin 2) * 512 + 1 * p.val = p.val; omega
  | ⟨1, _⟩ => show win1_3.index t (1 : Fin 2) * 4096 + 1 * q.val = t.val * 4096 + q.val; omega

/-- What point t writes back is block t of x · a + b. -/
theorem flushed1_3_eq (c : Dev nD) (t : Fin cfg1.N) :
    (dat1 V c).flushed 3 t = ((cfg1.win 3).blk t).view.read (Elt Ideal) (affineRows (V c main_arg0) (V c main_v47) (V c main_v50)) := by
  show (cfg1.win 3).cut (grid1.coords t) ((dat1 V c).after 3 t) = _
  rw [after1_3]
  unfold out1_3
  rw [View.canon_unit_zero hz2']
  simp only [View.ld_unit_zero (S := S512x4096) hz2', View.ld_unit_zero (S := S1x4096) hz2']
  funext j
  obtain ⟨p, q, rfl⟩ : ∃ (p : Fin 512) (q : Fin 4096), j = ix2 p q := ⟨j 0, j 1, eq_ix2 j⟩
  refine (pay_affine_apply _ _ _ p q).trans ?_
  show _ = affineRows (V c main_arg0) (V c main_v47) (V c main_v50) (((cfg1.win 3).blk t).view.emb (ix2 p q))
  rw [emb1_3_apply, iblk1_0_apply, iblk1_1_apply, iblk1_2_apply]
  rfl

theorem mem_blk1_3 (t : Fin cfg1.N) (i : S512x65536.Idx) :
    i ∈ ((cfg1.win 3).blk t).view.set ↔ ∀ a : Fin 2, win1_3.index t a * S512x4096.size a ≤ (i a).val ∧ (i a).val < win1_3.index t a * S512x4096.size a + S512x4096.size a := by
  show i ∈ ((View.whole main_v51).slice (win1_3.rect t)).set ↔ _
  rw [View.set_slice_whole, Rect.mem_set_unit]
  exact Iff.rfl

/-- Channel k lies in the block of point k / 4096. -/
theorem cover1_3 (i : S512x65536.Idx) : ∃ t : Fin cfg1.N, (cfg1.win 3).flush t = true ∧ i ∈ ((cfg1.win 3).blk t).view.set := by
  have hi0 : (i 0).val < 512 := (i 0).isLt
  have hi1 : (i 1).val < 65536 := (i 1).isLt
  have hN : cfg1.N = 16 := N_1
  let t : Fin cfg1.N := ⟨(i 1).val / 4096, by omega⟩
  obtain ⟨-, -, -, -, -, -, e6, e7⟩ := idx_facts1 t
  have ht : t.val = (i 1).val / 4096 := rfl
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 4096 ≤ (i 1).val ∧ (i 1).val < win1_3.index t (1 : Fin 2) * 4096 + 4096; omega

/-- After the pass the result array holds x · a + b. -/
theorem final1_3 (c : Dev nD) : (dat1 V c).arrAt 3 cfg1.N = affineRows (V c main_arg0) (V c main_v47) (V c main_v50) :=
  (dat1 V c).arrAt_eq_of_cover 3 (affineRows (V c main_arg0) (V c main_v47) (V c main_v50)) (fun t _ => flushed1_3_eq V c t) cover1_3

end Cert.KernelIdeal.Frm

end
-- ==== Proof.HostRows.lean ====
/-
  The first stretch of host operations, between the two regions, as a function of the five arrays it reads.

  It takes the per-channel column sums s1 and sums of squares s2 (each a [1, 65536] row), the channels' group numbers
  cg, and the per-group scale γ and shift β.  It lays the three columns (1, s1 c, s2 c) side by side as a [65536, 3]
  array, adds each row into the row of a zero [4096, 3] array that the channel's group number names, and reads off,
  per group, the member count, the sum and the sum of squares.  From these it forms counts = max (count · 512) 1,
  mean = sum / counts, var = sumsq / counts − mean², inv = 1 / sqrt (max var 0 + eps), a = γ · inv and
  b = β − mean · a, lays a and b side by side as a [4096, 2] table, and reads for every channel the table's row at
  the channel's group number, wrapped once if negative and clamped into range.  Column 0 of the result, as a
  [1, 65536] row, is rowA; column 1 is rowB.

  The shape relations the operations take are the ones the program states (its class of side conditions).
-/
import proofs.«141373_j16836271800620_2_alg».proof.KernelIdeal
import proofs.«141373_j16836271800620_2_alg».proof.Proof.Spec

noncomputable section

namespace Cert.KernelIdeal.HostValue

open Idealize.ShloMosaic

variable [Facts₀]
open Facts₀

/-- Three [65536, 1] columns side by side. -/
def cat3 (a b c : FVec Ideal S65536x1 .f32) : FVec Ideal S65536x3 .f32 :=
  concatenate S65536x3 1 [⟨S65536x1, a⟩, ⟨S65536x1, b⟩, ⟨S65536x1, c⟩] concatenates_S65536x1_S65536x1_S65536x1_S65536x3_d1

/-- Two [4096, 1] columns side by side. -/
def cat2 (a b : FVec Ideal S4096x1 .f32) : FVec Ideal S4096x2 .f32 :=
  concatenate S4096x2 1 [⟨S4096x1, a⟩, ⟨S4096x1, b⟩] concatenates_S4096x1_S4096x1_S4096x2_d1

/-- A constant, by its binary32 pattern, at every group. -/
def splat (w : BitVec 32) : FVec Ideal S4096 .f32 :=
  broadcastInDim S4096 ![] bcast_S_S4096 (constant (F := Ideal) S_ .f32 w)

section Defs
variable (s1 s2 : FVec Ideal S1x65536 .f32) (cg : IVec S65536 32) (γ β : FVec Ideal S4096 .f32)

/-- The [65536, 3] array whose row c is (1, s1 c, s2 c). -/
def stacked : FVec Ideal S65536x3 .f32 :=
  cat3
    (broadcastInDim S65536x1 ![0] bcast_S65536_S65536x1_0
      (broadcastInDim S65536 ![] bcast_S_S65536 (constant (F := Ideal) S_ .f32 0x3F800000#32)))
    (broadcastInDim S65536x1 ![0] bcast_S65536_S65536x1_0 (shapeCast S65536 s1 shapeCasts_S1x65536_S65536))
    (broadcastInDim S65536x1 ![0] bcast_S65536_S65536x1_0 (shapeCast S65536 s2 shapeCasts_S1x65536_S65536))

/-- Its rows added into the rows of a zero [4096, 3] array that the group numbers name. -/
def sums : FVec Ideal S4096x3 .f32 :=
  Host.scatterAdd scatter_S4096x3_S65536x1_S65536x3_1_0_0_1
    (broadcastInDim S4096x3 ![] bcast_S_S4096x3 (constant (F := Ideal) S_ .f32 0x00000000#32))
    (broadcastInDim S65536x1 ![0] bcast_S65536_S65536x1_0 cg)
    (stacked s1 s2)

/-- Column 0 of the sums: per group, the number of member channels. -/
def col0 : FVec Ideal S4096 .f32 :=
  shapeCast S4096 (extractStridedSlice S4096x1 ![0, 0] (sums s1 s2 cg) slices_S4096x3_S4096x1_0_0) shapeCasts_S4096x1_S4096
/-- Column 1: per group, the sum of the member columns' sums. -/
def col1 : FVec Ideal S4096 .f32 :=
  shapeCast S4096 (extractStridedSlice S4096x1 ![0, 1] (sums s1 s2 cg) slices_S4096x3_S4096x1_0_1) shapeCasts_S4096x1_S4096
/-- Column 2: per group, the sum of the member columns' sums of squares. -/
def col2 : FVec Ideal S4096 .f32 :=
  shapeCast S4096 (extractStridedSlice S4096x1 ![0, 2] (sums s1 s2 cg) slices_S4096x3_S4096x1_0_2) shapeCasts_S4096x1_S4096

/-- max (count · 512) 1. -/
def countsV : FVec Ideal S4096 .f32 :=
  maximumf (mulf (col0 s1 s2 cg) (splat 0x44000000#32)) (splat 0x3F800000#32)
/-- sum / counts. -/
def meanV : FVec Ideal S4096 .f32 := Host.divf (col1 s1 s2 cg) (countsV s1 s2 cg)
/-- sumsq / counts − mean². -/
def varV : FVec Ideal S4096 .f32 :=
  subf (Host.divf (col2 s1 s2 cg) (countsV s1 s2 cg)) (mulf (meanV s1 s2 cg) (meanV s1 s2 cg))
/-- 1 / sqrt (max var 0 + eps). -/
def invV : FVec Ideal S4096 .f32 :=
  Host.divf (splat 0x3F800000#32)
    (Host.sqrt (addf (maximumf (varV s1 s2 cg) (splat 0x00000000#32)) (splat 0x3727C5AC#32)))
/-- a = γ · inv. -/
def aV : FVec Ideal S4096 .f32 := mulf γ (invV s1 s2 cg)
/-- b = β − mean · a. -/
def bV : FVec Ideal S4096 .f32 := subf β (mulf (meanV s1 s2 cg) (aV s1 s2 cg γ))

/-- The [4096, 2] table whose row g is (a g, b g). -/
def table : FVec Ideal S4096x2 .f32 :=
  cat2 (broadcastInDim S4096x1 ![0] bcast_S4096_S4096x1_0 (aV s1 s2 cg γ))
    (broadcastInDim S4096x1 ![0] bcast_S4096_S4096x1_0 (bV s1 s2 cg γ β))

/-- The group numbers, a negative one with 4096 added. -/
def wrapped : IVec S65536 32 :=
  select (cmpi .slt cg (broadcastInDim S65536 ![] bcast_S_S65536 (constantI S_ 32 0#32)))
    (addi cg (broadcastInDim S65536 ![] bcast_S_S65536 (constantI S_ 32 4096#32))) cg

/-- The [65536, 2] array whose row c is the table's row at channel c's wrapped group number, clamped into range. -/
def gathered : FVec Ideal S65536x2 .f32 :=
  Host.gather gather_S4096x2_S65536x1_S65536x2_1_0_n_n_0_1_12 (table s1 s2 cg γ β)
    (broadcastInDim S65536x1 ![0] bcast_S65536_S65536x1_0 (wrapped cg))

/-- Its column 0 as a [1, 65536] row: the scale each channel is multiplied by. -/
def rowA : FVec Ideal S1x65536 .f32 :=
  shapeCast S1x65536
    (shapeCast S65536 (extractStridedSlice S65536x1 ![0, 0] (gathered s1 s2 cg γ β) slices_S65536x2_S65536x1_0_0)
      shapeCasts_S65536x1_S65536)
    shapeCasts_S65536_S1x65536

/-- Its column 1 as a [1, 65536] row: the shift each channel is then given. -/
def rowB : FVec Ideal S1x65536 .f32 :=
  shapeCast S1x65536
    (shapeCast S65536 (extractStridedSlice S65536x1 ![0, 1] (gathered s1 s2 cg γ β) slices_S65536x2_S65536x1_0_1)
      shapeCasts_S65536x1_S65536)
    shapeCasts_S65536_S1x65536

end Defs

end Cert.KernelIdeal.HostValue

end
-- ==== Proof.HostStretch.lean ====
/-
  The two stretches of host operations between and after the two regions, run over a valuation of the buffers.

  After the first stretch the two buffers the second region reads its per-channel scale and shift from hold `rowA`
  and `rowB` of the five arrays the stretch reads (the two rows of column statistics the first region wrote, the
  group numbers, the scale and the shift): each operation's result at its own buffer is its function of its operands'
  contents, and the operations compose to those two functions.  The second stretch adds a trailing unit axis to the
  [512, 65536] result of the second region: its buffer at (b, c, 0) holds that result at (b, c).
-/
import proofs.«141373_j16836271800620_2_alg».proof.Proof.Gen.KernelIdeal.Launch
import proofs.«141373_j16836271800620_2_alg».proof.Proof.Spec
import proofs.«141373_j16836271800620_2_alg».proof.Proof.HostRows
import Idealize.ShloMosaic.Lib.StableHlo.Run
import Idealize.ShloMosaic.Lib.ValueLayout

noncomputable section

namespace Cert.KernelIdeal.HostValue

open Idealize.ShloMosaic Idealize.ShloMosaic.StableHlo Idealize.ShloMosaic.ValueIdx Idealize.ShloMosaic.TcCoe

/-! ## The first stretch's operations compose to `rowA` and `rowB` -/

/-- The three-operand concatenation, run over a valuation: the three operands' contents side by side. -/
theorem v7_result (hxs hy) (V : Valuation τ sig (Elt Ideal)) :
    (StableHlo.nary (τ := τ) ![main_v4, main_v5, main_v6] main_v7
        (fun u => concatenate S65536x3 1 [⟨S65536x1, u 0⟩, ⟨S65536x1, u 1⟩, ⟨S65536x1, u 2⟩]
          Gen.concatenates_S65536x1_S65536x1_S65536x1_S65536x3_d1) hxs hy).result V (no_index (Proc.devRef .tc main_v7))
      = cat3 (V (Proc.devRef .tc main_v4)) (V (Proc.devRef .tc main_v5)) (V (Proc.devRef .tc main_v6)) := by
  rw [nary_result]; rfl

/-- The two-operand concatenation is `cat2` of its operands. -/
theorem cat2_fold (a b : FVec Ideal S4096x1 .f32) :
    concatenate S4096x2 1 [⟨S4096x1, a⟩, ⟨S4096x1, b⟩] Gen.concatenates_S4096x1_S4096x1_S4096x2_d1 = cat2 a b := rfl

/-- One pass over a line of host operations: each operation's result at its own buffer is its function of its
    operands' contents, at any other buffer what was there; the two concatenations are named, so that the pass goes
    on into their operands. -/
macro "host_results" : tactic =>
  `(tactic| (simp (disch := decide) only [after_cons, after_nil,
      nullary_result', unary_result', binary_result', ternary_result', reshape_result', v7_result, cat2_fold,
      nullary_result_ne', unary_result_ne', binary_result_ne', ternary_result_ne', reshape_result_ne', nary_result_ne']))

set_option maxHeartbeats 4000000 in
/-- After the first stretch the buffer the second region reads its scales from holds `rowA` of the five arrays. -/
theorem after_hostOps1_v47 (W : Valuation τ sig (Elt Ideal)) :
    StableHlo.after (Gen.hostOps1 (F := Ideal)) W (Proc.devRef .tc main_v47)
      = rowA (W (Proc.devRef .tc main_v0_0)) (W (Proc.devRef .tc main_v0_1)) (W (Proc.devRef .tc main_arg1))
          (W (Proc.devRef .tc main_arg2)) (W (Proc.devRef .tc main_arg3)) := by
  host_results
  rfl

set_option maxHeartbeats 4000000 in
/-- After the first stretch the buffer the second region reads its shifts from holds `rowB` of the five arrays. -/
theorem after_hostOps1_v50 (W : Valuation τ sig (Elt Ideal)) :
    StableHlo.after (Gen.hostOps1 (F := Ideal)) W (Proc.devRef .tc main_v50)
      = rowB (W (Proc.devRef .tc main_v0_0)) (W (Proc.devRef .tc main_v0_1)) (W (Proc.devRef .tc main_arg1))
          (W (Proc.devRef .tc main_arg2)) (W (Proc.devRef .tc main_arg3)) := by
  host_results
  rfl

/-! ## The second stretch -/

/-- After the second stretch the result buffer at (b, c, 0) holds the second region's output at (b, c). -/
theorem after_hostOps2_v52 (W : Valuation τ sig (Elt Ideal)) (b : Fin 512) (c : Fin 65536) :
    StableHlo.after (Gen.hostOps2 (F := Ideal)) W (Proc.devRef .tc main_v52) (ix3 b c 0)
      = W (Proc.devRef .tc main_v51) (ix2 b c) := by
  have e : StableHlo.after (Gen.hostOps2 (F := Ideal)) W (Proc.devRef .tc main_v52)
      = broadcastInDim S512x65536x1 ![0, 1] Gen.bcast_S512x65536_S512x65536x1_0_1 (W (Proc.devRef .tc main_v51)) := by
    after_results
  refine (congrFun e _).trans ?_
  exact broadcastInDim_apply _ _ _ _ (ix2 b c) fun a => by
    match a with
    | ⟨0, _⟩ => rfl
    | ⟨1, _⟩ => rfl

end Cert.KernelIdeal.HostValue

end
-- ==== Proof.StackedIndexing.lean ====
/-
  The two indexing operations of the host glue over the stacked per-group tables, read at an index.

  The scatter-add writes the three columns [1, s1, s2] of every channel into the row of its group: the row number is
  the channel's group number read signed, the column is kept, and an update whose row falls outside 0 … 4095 is
  dropped.  So entry (g, k) of the result is the operand's entry plus the sum of column k over the channels whose
  group number is exactly g.

  The gather reads, for channel c and column k, the table's row at the channel's group number read signed and
  clamped into 0 … 4095, at the same column k.
-/
import proofs.«141373_j16836271800620_2_alg».proof.KernelIdeal
import Idealize.ShloMosaic.PureOps.Ideal
import Idealize.ShloMosaic.Lib.ValueIdx

noncomputable section

namespace Cert.KernelIdeal.HostValue

open Idealize.ShloMosaic Idealize.ShloMosaic.ValueIdx Cert.KernelIdeal

variable [Facts₀]

local notation "Sd" => scatter_S4096x3_S65536x1_S65536x3_1_0_0_1
local notation "Gd" => gather_S4096x2_S65536x1_S65536x2_1_0_n_n_0_1_12

/-! ### The scatter's result index -/

theorem scatter_start0 (idx : IVec S65536x1 32) (c : Fin 65536) (m : Fin 3) :
    ScatterDims.start Sd (ix2 c m) idx 0 = (idx (ix2 c 0)).toInt := by
  unfold ScatterDims.start
  rw [dif_pos (show (0 : Fin 2) ∈ (Sd).scatterDimsToOperandDims from List.mem_singleton.mpr rfl)]
  have hsi : ScatterDims.siIdx Sd (ix2 c m) ⟨List.idxOf (0 : Fin 2) (Sd).scatterDimsToOperandDims,
      List.idxOf_lt_length_iff.2 (List.mem_singleton.mpr rfl)⟩ = ix2 c 0 := by
    funext b; refine Fin.ext ?_
    match b with
    | ⟨0, _⟩ => rfl
    | ⟨1, _⟩ => rfl
  rw [hsi]

theorem scatter_start1 (idx : IVec S65536x1 32) (c : Fin 65536) (m : Fin 3) :
    ScatterDims.start Sd (ix2 c m) idx 1 = 0 := by
  unfold ScatterDims.start
  rw [dif_neg (show ¬ (1 : Fin 2) ∈ (Sd).scatterDimsToOperandDims from
    fun h => absurd (List.mem_singleton.mp h) (by decide))]

theorem scatter_window0 (c : Fin 65536) (m : Fin 3) : ScatterDims.window Sd (ix2 c m) 0 = 0 := by
  unfold ScatterDims.window
  rw [dif_neg (show ¬ (0 : Fin 2) ∈ ScatterDims.sKept Sd from by
    show (0 : Fin 2) ∉ (List.finRange 2).filter (fun a => a ∉ [(0 : Fin 2)])
    decide)]

theorem scatter_window1 (c : Fin 65536) (m : Fin 3) : ScatterDims.window Sd (ix2 c m) 1 = m.val := by
  unfold ScatterDims.window
  rw [dif_pos (show (1 : Fin 2) ∈ ScatterDims.sKept Sd from by
    show (1 : Fin 2) ∈ (List.finRange 2).filter (fun a => a ∉ [(0 : Fin 2)])
    decide)]
  rfl

/-- An update lands on entry (g, k) exactly when its channel's group number is g and its column is k. -/
theorem scatter_resultIdx_iff (idx : IVec S65536x1 32) (j : S65536x3.Idx) (g : Fin 4096) (k : Fin 3) :
    ScatterDims.resultIdx? Sd j idx = some (ix2 g k) ↔ (idx (ix2 (j 0) 0)).toInt = (g.val : Int) ∧ j 1 = k := by
  obtain ⟨c, m, rfl⟩ : ∃ c m, j = ix2 c m := ⟨j 0, j 1, eq_ix2 j⟩
  show _ ↔ (idx (ix2 c 0)).toInt = (g.val : Int) ∧ m = k
  have hg := g.isLt
  have hm := m.isLt
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [scatter_start0, scatter_window0, scatter_start1, scatter_window1] at h0 h1 hb0
      change _ = g.val at h0
      change _ = k.val at h1
      exact ⟨by omega, Fin.ext (by omega)⟩
    · exact absurd h (by simp)
  · rintro ⟨h0, rfl⟩
    have hb : ∀ a, 0 ≤ ScatterDims.start Sd (ix2 c m) idx a + ScatterDims.window Sd (ix2 c m) a ∧
        ScatterDims.start Sd (ix2 c m) idx a + ScatterDims.window Sd (ix2 c m) a < S4096x3.size a := by
      intro a
      match a with
      | ⟨0, _⟩ =>
        show 0 ≤ ScatterDims.start Sd (ix2 c m) idx 0 + ScatterDims.window Sd (ix2 c m) 0 ∧
          ScatterDims.start Sd (ix2 c m) idx 0 + ScatterDims.window Sd (ix2 c m) 0 < (4096 : Nat)
        rw [scatter_start0, scatter_window0, h0]; omega
      | ⟨1, _⟩ =>
        show 0 ≤ ScatterDims.start Sd (ix2 c m) idx 1 + ScatterDims.window Sd (ix2 c m) 1 ∧
          ScatterDims.start Sd (ix2 c m) idx 1 + ScatterDims.window Sd (ix2 c m) 1 < (3 : Nat)
        rw [scatter_start1, scatter_window1]; omega
    rw [dif_pos hb]
    refine congrArg some (funext fun a => Fin.ext ?_)
    match a with
    | ⟨0, _⟩ =>
      show (ScatterDims.start Sd (ix2 c m) idx 0 + ScatterDims.window Sd (ix2 c m) 0).toNat = g.val
      rw [scatter_start0, scatter_window0, h0]; omega
    | ⟨1, _⟩ =>
      show (ScatterDims.start Sd (ix2 c m) idx 1 + ScatterDims.window Sd (ix2 c m) 1).toNat = m.val
      rw [scatter_start1, scatter_window1]; omega

/-- THE SCATTER-ADD READ AT (g, k): the operand's entry plus column k summed over the members of group g. -/
theorem scatterStacked_apply (x0 : FVec Ideal S4096x3 .f32) (idx : IVec S65536x1 32) (upd : FVec Ideal S65536x3 .f32)
    (g : Fin 4096) (k : Fin 3) :
    Host.scatterAdd (F := Ideal) Sd x0 idx upd (ix2 g k)
      = x0 (ix2 g k) + ∑ c ∈ Finset.univ.filter (fun c : Fin 65536 => (idx (ix2 c 0)).toInt = (g.val : Int)), upd (ix2 c k) := by
  show Ideal.hostScatterAdd Sd x0 idx upd (ix2 g k) = _
  unfold Ideal.hostScatterAdd
  refine congrArg (x0 (ix2 g k) + ·) ?_
  refine Finset.sum_nbij' (fun j => j 0) (fun c => ix2 c k) ?_ ?_ ?_ ?_ ?_
  · intro j hj
    rw [Finset.mem_filter] at hj
    exact Finset.mem_filter.2 ⟨Finset.mem_univ _, ((scatter_resultIdx_iff idx j g k).1 hj.2).1⟩
  · intro c hc
    rw [Finset.mem_filter] at hc
    exact Finset.mem_filter.2 ⟨Finset.mem_univ _, (scatter_resultIdx_iff idx (ix2 c k) g k).2 ⟨hc.2, rfl⟩⟩
  · intro j hj
    rw [Finset.mem_filter] at hj
    have h1 := ((scatter_resultIdx_iff idx j g k).1 hj.2).2
    rw [← h1]; exact (eq_ix2 j).symm
  · intro c _; rfl
  · intro j hj
    rw [Finset.mem_filter] at hj
    have h1 := ((scatter_resultIdx_iff idx j g k).1 hj.2).2
    show upd j = upd (ix2 (j 0) k)
    rw [← h1]
    exact congrArg upd (eq_ix2 j)

/-! ### The gather's operand index -/

/-- THE GATHER READ AT (c, k): the table's row at the channel's group number, read signed and clamped into
    0 … 4095, at column k. -/
theorem gatherStacked_apply {α : Type} (tab : S4096x2.Idx → α) (idx : IVec S65536x1 32) (c : Fin 65536) (k : Fin 2) :
    Host.gather Gd tab idx (ix2 c k)
      = tab (ix2 (⟨min (idx (ix2 c 0)).toInt.toNat 4095, by omega⟩ : Fin 4096) k) := by
  unfold Host.gather
  congr 1
  funext a
  refine Fin.ext ?_
  match a with
  | ⟨0, _⟩ =>
    show GatherDims.start Gd (ix2 c k) idx 0 + GatherDims.batchCoord Gd (ix2 c k) 0 + GatherDims.offCoord Gd (ix2 c k) 0
      = min (idx (ix2 c 0)).toInt.toNat 4095
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (Gd).startIndexMap from List.mem_singleton.mpr rfl)]
    have hsi : GatherDims.siIdx Gd (ix2 c k) ⟨List.idxOf (0 : Fin 2) (Gd).startIndexMap,
        List.idxOf_lt_length_iff.2 (List.mem_singleton.mpr rfl)⟩ = ix2 c 0 := by
      funext b; refine Fin.ext ?_
      match b with
      | ⟨0, _⟩ => rfl
      | ⟨1, _⟩ => rfl
    rw [hsi]
    rfl
  | ⟨1, _⟩ =>
    show GatherDims.start Gd (ix2 c k) idx 1 + GatherDims.batchCoord Gd (ix2 c k) 1 + GatherDims.offCoord Gd (ix2 c k) 1
      = k.val
    rw [GatherDims.batchCoord_eq_zero _ _ _ List.not_mem_nil]
    unfold GatherDims.start
    rw [dif_neg (show ¬ (1 : Fin 2) ∈ (Gd).startIndexMap from
      fun h => absurd (List.mem_singleton.mp h) (by decide))]
    unfold GatherDims.offCoord
    rw [dif_pos (show (1 : Fin 2) ∈ GatherDims.sKept Gd from
      (GatherDims.mem_sKept _ _).mpr ⟨fun h => absurd (List.mem_singleton.mp h) (by decide), List.not_mem_nil⟩)]
    simp only [Nat.zero_add, Nat.add_zero]
    rfl

end Cert.KernelIdeal.HostValue

end
-- ==== Proof.HostLayout.lean ====
/-
  Layout operations on columns and rows, read at an index given by coordinates.

  An array of `n` entries appears in three shapes: a vector `[n]`, a column `[n, 1]` and a row `[1, n]`. Stated
  here, for any extent: a vector broadcast to a column, a column or a row cast to a vector and back, a scalar
  broadcast to any shape, and a concatenation of two or three columns along axis 1 read at column `k`, which is
  piece `k` read at its one column.
-/
import Idealize.ShloMosaic.Lib.ValueLayout

namespace Cert.KernelIdeal.HostLayout

open Idealize.ShloMosaic Idealize.ShloMosaic.ValueIdx

variable {α : Type}

/-- A vector broadcast to a column reads, at row `i`, the vector at `i`. -/
theorem bcast_col_apply {n : Nat} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => match a with
    | ⟨0, _⟩ => by
      show i.val = if n = 1 then 0 else i.val
      split
      · have := i.isLt; omega
      · rfl)

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply _ h x _ _ (fun a => a.elim0)

/-- A column cast to a vector reads, at `i`, the column at row `i`. -/
theorem shapeCast_a1_a_apply {n : Nat} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector cast to a column reads, at row `i`, the vector at `i`. -/
theorem shapeCast_a_a1_apply {n : Nat} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Three columns side by side, read at column `0`: the first. -/
theorem concat3_col0_apply {n : Nat} (x0 x1 x2 : (⟨2, ![n, 1]⟩ : Shape).Idx → α)
    (h : Shape.Concatenates [(⟨2, ![n, 1]⟩ : Shape), ⟨2, ![n, 1]⟩, ⟨2, ![n, 1]⟩] ⟨2, ![n, 3]⟩ 1) (c : Fin n) :
    concatenate ⟨2, ![n, 3]⟩ 1 [⟨⟨2, ![n, 1]⟩, x0⟩, ⟨⟨2, ![n, 1]⟩, x1⟩, ⟨⟨2, ![n, 1]⟩, x2⟩] h (ix2 c (0 : Fin 3))
      = x0 (ix2 c (0 : Fin 1)) :=
  concatenate_apply_piece (t := ⟨2, ![n, 3]⟩) 1 [⟨⟨2, ![n, 1]⟩, x0⟩, ⟨⟨2, ![n, 1]⟩, x1⟩, ⟨⟨2, ![n, 1]⟩, x2⟩] h (ix2 c _) 0 (by show (0 : Nat) < 3; decide) ⟨2, ![n, 1]⟩ x0 rfl rfl 0 rfl (ix2 c (0 : Fin 1))
    (fun b hb => match b with
      | ⟨0, _⟩ => rfl
      | ⟨1, _⟩ => absurd rfl hb) rfl

/-- Three columns side by side, read at column `1`: the second. -/
theorem concat3_col1_apply {n : Nat} (x0 x1 x2 : (⟨2, ![n, 1]⟩ : Shape).Idx → α)
    (h : Shape.Concatenates [(⟨2, ![n, 1]⟩ : Shape), ⟨2, ![n, 1]⟩, ⟨2, ![n, 1]⟩] ⟨2, ![n, 3]⟩ 1) (c : Fin n) :
    concatenate ⟨2, ![n, 3]⟩ 1 [⟨⟨2, ![n, 1]⟩, x0⟩, ⟨⟨2, ![n, 1]⟩, x1⟩, ⟨⟨2, ![n, 1]⟩, x2⟩] h (ix2 c (1 : Fin 3))
      = x1 (ix2 c (0 : Fin 1)) :=
  concatenate_apply_piece (t := ⟨2, ![n, 3]⟩) 1 [⟨⟨2, ![n, 1]⟩, x0⟩, ⟨⟨2, ![n, 1]⟩, x1⟩, ⟨⟨2, ![n, 1]⟩, x2⟩] h (ix2 c _) 1 (by show (1 : Nat) < 3; decide) ⟨2, ![n, 1]⟩ x1 rfl rfl 1 rfl (ix2 c (0 : Fin 1))
    (fun b hb => match b with
      | ⟨0, _⟩ => rfl
      | ⟨1, _⟩ => absurd rfl hb) rfl

/-- Three columns side by side, read at column `2`: the third. -/
theorem concat3_col2_apply {n : Nat} (x0 x1 x2 : (⟨2, ![n, 1]⟩ : Shape).Idx → α)
    (h : Shape.Concatenates [(⟨2, ![n, 1]⟩ : Shape), ⟨2, ![n, 1]⟩, ⟨2, ![n, 1]⟩] ⟨2, ![n, 3]⟩ 1) (c : Fin n) :
    concatenate ⟨2, ![n, 3]⟩ 1 [⟨⟨2, ![n, 1]⟩, x0⟩, ⟨⟨2, ![n, 1]⟩, x1⟩, ⟨⟨2, ![n, 1]⟩, x2⟩] h (ix2 c (2 : Fin 3))
      = x2 (ix2 c (0 : Fin 1)) :=
  concatenate_apply_piece (t := ⟨2, ![n, 3]⟩) 1 [⟨⟨2, ![n, 1]⟩, x0⟩, ⟨⟨2, ![n, 1]⟩, x1⟩, ⟨⟨2, ![n, 1]⟩, x2⟩] h (ix2 c _) 2 (by show (2 : Nat) < 3; decide) ⟨2, ![n, 1]⟩ x2 rfl rfl 2 rfl (ix2 c (0 : Fin 1))
    (fun b hb => match b with
      | ⟨0, _⟩ => rfl
      | ⟨1, _⟩ => absurd rfl hb) rfl

/-- Two columns side by side, read at column `0`: the first. -/
theorem concat2_col0_apply {n : Nat} (x0 x1 : (⟨2, ![n, 1]⟩ : Shape).Idx → α)
    (h : Shape.Concatenates [(⟨2, ![n, 1]⟩ : Shape), ⟨2, ![n, 1]⟩] ⟨2, ![n, 2]⟩ 1) (c : Fin n) :
    concatenate ⟨2, ![n, 2]⟩ 1 [⟨⟨2, ![n, 1]⟩, x0⟩, ⟨⟨2, ![n, 1]⟩, x1⟩] h (ix2 c (0 : Fin 2))
      = x0 (ix2 c (0 : Fin 1)) :=
  concatenate_apply_piece (t := ⟨2, ![n, 2]⟩) 1 [⟨⟨2, ![n, 1]⟩, x0⟩, ⟨⟨2, ![n, 1]⟩, x1⟩] h (ix2 c _) 0 (by show (0 : Nat) < 2; decide) ⟨2, ![n, 1]⟩ x0 rfl rfl 0 rfl (ix2 c (0 : Fin 1))
    (fun b hb => match b with
      | ⟨0, _⟩ => rfl
      | ⟨1, _⟩ => absurd rfl hb) rfl

/-- Two columns side by side, read at column `1`: the second. -/
theorem concat2_col1_apply {n : Nat} (x0 x1 : (⟨2, ![n, 1]⟩ : Shape).Idx → α)
    (h : Shape.Concatenates [(⟨2, ![n, 1]⟩ : Shape), ⟨2, ![n, 1]⟩] ⟨2, ![n, 2]⟩ 1) (c : Fin n) :
    concatenate ⟨2, ![n, 2]⟩ 1 [⟨⟨2, ![n, 1]⟩, x0⟩, ⟨⟨2, ![n, 1]⟩, x1⟩] h (ix2 c (1 : Fin 2))
      = x1 (ix2 c (0 : Fin 1)) :=
  concatenate_apply_piece (t := ⟨2, ![n, 2]⟩) 1 [⟨⟨2, ![n, 1]⟩, x0⟩, ⟨⟨2, ![n, 1]⟩, x1⟩] h (ix2 c _) 1 (by show (1 : Nat) < 2; decide) ⟨2, ![n, 1]⟩ x1 rfl rfl 1 rfl (ix2 c (0 : Fin 1))
    (fun b hb => match b with
      | ⟨0, _⟩ => rfl
      | ⟨1, _⟩ => absurd rfl hb) rfl

end Cert.KernelIdeal.HostLayout
-- ==== Proof.HostRowsApply.lean ====
/-
  The rows the first stretch of host operations hands to the second region, read at a channel.

  Given that the two rows it reads hold the column sums and the column sums of squares of an array X, row A at channel
  c is the folded scale a = γ · inv and row B the folded shift b = β − mean · a of the group that the channel's number,
  wrapped once and clamped into range, names, the group statistics being those of X.

  The chain: the three columns (1, sum, sum of squares) side by side; their scatter-add, whose column k at group g is
  the sum over the group's member channels of column k; the statistics per group; the table (a, b) per group; its
  gather at the wrapped numbers; the two columns of the result as rows.
-/
import proofs.«141373_j16836271800620_2_alg».proof.Proof.HostRows
import proofs.«141373_j16836271800620_2_alg».proof.Proof.StackedIndexing
import proofs.«141373_j16836271800620_2_alg».proof.Proof.HostLayout
import proofs.«141373_j16836271800620_2_alg».proof.Proof.Spec
import Idealize.ShloMosaic.PureOps.Ideal.Laws

noncomputable section

namespace Cert.KernelIdeal.HostValue

open Idealize.ShloMosaic Idealize.ShloMosaic.ValueIdx Cert.KernelIdeal Cert.KernelIdeal.HostLayout

variable [Facts₀]
open Facts₀

/-! ## The stacked columns and their sums per group -/

/-- A constant at every group reads the extended real its pattern encodes. -/
theorem splat_apply (w : BitVec 32) (i : S4096.Idx) : splat w i = Ideal.ofBits .f32 w := by
  unfold splat
  rw [bcast_scalar_apply]
  rfl

section Rows
variable (u1 u2 : FVec Ideal S1x65536 .f32) (cg : IVec S65536 32) (γ β : FVec Ideal S4096 .f32)

/-- Column 0 of the stacked array is the constant one, -/
theorem stacked_col0 (c : Fin 65536) : stacked u1 u2 (ix2 c (0 : Fin 3)) = Cert.GroupNorm.one := by
  unfold stacked cat3
  rw [concat3_col0_apply, bcast_col_apply, bcast_scalar_apply]
  rfl

/-- column 1 the first row, -/
theorem stacked_col1 (c : Fin 65536) : stacked u1 u2 (ix2 c (1 : Fin 3)) = u1 (ix2 (0 : Fin 1) c) := by
  unfold stacked cat3
  rw [concat3_col1_apply, bcast_col_apply, shapeCast_1a_a_apply]

/-- and column 2 the second. -/
theorem stacked_col2 (c : Fin 65536) : stacked u1 u2 (ix2 c (2 : Fin 3)) = u2 (ix2 (0 : Fin 1) c) := by
  unfold stacked cat3
  rw [concat3_col2_apply, bcast_col_apply, shapeCast_1a_a_apply]

/-- The scatter-add at group `g`, column `k`: the sum of column `k` over the group's member channels. -/
theorem sums_apply (g : Fin 4096) (k : Fin 3) :
    sums u1 u2 cg (ix2 g k) = ∑ c ∈ Cert.GroupNorm.members cg g, stacked u1 u2 (ix2 c k) := by
  unfold sums
  rw [scatterStacked_apply, bcast_scalar_apply]
  show Ideal.ofBits .f32 0x00000000#32 + _ = _
  rw [Ideal.ofBits_zero_f32, zero_add]
  unfold Cert.GroupNorm.members
  refine Finset.sum_congr (Finset.filter_congr fun c _ => ?_) fun _ _ => rfl
  rw [bcast_col_apply]

/-! ## The statistics per group -/

/-- Column 0 of the sums: the number of member channels of the group. -/
theorem col0_apply (g : Fin 4096) : col0 u1 u2 cg (ix1 g) = Cert.GroupNorm.cnt cg g := by
  unfold col0
  rw [shapeCast_a1_a_apply, slice2_axis1_apply 0 _ _ g (0 : Fin 1) (0 : Fin 3) rfl, sums_apply]
  unfold Cert.GroupNorm.cnt
  exact Finset.sum_congr rfl fun c _ => stacked_col0 u1 u2 c

/-- The number of entries of the group, at least one. -/
theorem countsV_apply (g : Fin 4096) : countsV u1 u2 cg (ix1 g) = Cert.GroupNorm.counts cg g := by
  unfold countsV
  show max (col0 u1 u2 cg (ix1 g) * splat 0x44000000#32 (ix1 g)) (splat 0x3F800000#32 (ix1 g)) = _
  rw [col0_apply, splat_apply, splat_apply]
  rfl

variable (X : Cert.GroupNorm.SX.Idx → EReal)

/-- Column 1 of the sums: the sum of the entries of the group's columns, when the first row holds the column sums. -/
theorem col1_apply (h1 : ∀ c : Fin 65536, u1 (ix2 (0 : Fin 1) c) = Cert.GroupNorm.colSum X c) (g : Fin 4096) :
    col1 u1 u2 cg (ix1 g) = Cert.GroupNorm.s1 X cg g := by
  unfold col1
  rw [shapeCast_a1_a_apply, slice2_axis1_apply 1 _ _ g (0 : Fin 1) (1 : Fin 3) rfl, sums_apply]
  unfold Cert.GroupNorm.s1
  exact Finset.sum_congr rfl fun c _ => (stacked_col1 u1 u2 c).trans (h1 c)

/-- Column 2 of the sums: the sum of the squares, when the second row holds the column sums of squares. -/
theorem col2_apply (h2 : ∀ c : Fin 65536, u2 (ix2 (0 : Fin 1) c) = Cert.GroupNorm.colSq X c) (g : Fin 4096) :
    col2 u1 u2 cg (ix1 g) = Cert.GroupNorm.s2 X cg g := by
  unfold col2
  rw [shapeCast_a1_a_apply, slice2_axis1_apply 2 _ _ g (0 : Fin 1) (2 : Fin 3) rfl, sums_apply]
  unfold Cert.GroupNorm.s2
  exact Finset.sum_congr rfl fun c _ => (stacked_col2 u1 u2 c).trans (h2 c)

/-- The mean of the group. -/
theorem meanV_apply (h1 : ∀ c : Fin 65536, u1 (ix2 (0 : Fin 1) c) = Cert.GroupNorm.colSum X c) (g : Fin 4096) :
    meanV u1 u2 cg (ix1 g) = Cert.GroupNorm.mean X cg g := by
  unfold meanV
  show FloatOps.hostDivf (col1 u1 u2 cg (ix1 g)) (countsV u1 u2 cg (ix1 g)) = _
  rw [Ideal.hostDivf_def, col1_apply u1 u2 cg X h1, countsV_apply]
  rfl

/-- The variance of the group. -/
theorem varV_apply (h1 : ∀ c : Fin 65536, u1 (ix2 (0 : Fin 1) c) = Cert.GroupNorm.colSum X c)
    (h2 : ∀ c : Fin 65536, u2 (ix2 (0 : Fin 1) c) = Cert.GroupNorm.colSq X c) (g : Fin 4096) :
    varV u1 u2 cg (ix1 g) = Cert.GroupNorm.var X cg g := by
  unfold varV
  show FloatOps.subf (FloatOps.hostDivf (col2 u1 u2 cg (ix1 g)) (countsV u1 u2 cg (ix1 g)))
    (FloatOps.mulf (meanV u1 u2 cg (ix1 g)) (meanV u1 u2 cg (ix1 g))) = _
  rw [Ideal.subf_def, Ideal.hostDivf_def, Ideal.mulf_def, col2_apply u1 u2 cg X h2, countsV_apply,
    meanV_apply u1 u2 cg X h1]
  rfl

/-- The reciprocal standard deviation of the group, the variance clamped at zero from below. -/
theorem invV_apply (h1 : ∀ c : Fin 65536, u1 (ix2 (0 : Fin 1) c) = Cert.GroupNorm.colSum X c)
    (h2 : ∀ c : Fin 65536, u2 (ix2 (0 : Fin 1) c) = Cert.GroupNorm.colSq X c) (g : Fin 4096) :
    invV u1 u2 cg (ix1 g) = Cert.GroupNorm.invK X cg g := by
  unfold invV
  show FloatOps.hostDivf (splat 0x3F800000#32 (ix1 g))
    (FloatOps.hostUnary .sqrt (FloatOps.addf
      (FloatOps.maximumf (varV u1 u2 cg (ix1 g)) (splat 0x00000000#32 (ix1 g))) (splat 0x3727C5AC#32 (ix1 g)))) = _
  rw [Ideal.hostDivf_def, Ideal.hostUnary_sqrt_def, Ideal.addf_def, Ideal.maximumf_def,
    varV_apply u1 u2 cg X h1 h2, splat_apply, splat_apply, splat_apply]
  unfold Cert.GroupNorm.invK Cert.GroupNorm.one Cert.GroupNorm.zero Cert.GroupNorm.eps
  rfl

/-- The folded scale of the group. -/
theorem aV_apply (h1 : ∀ c : Fin 65536, u1 (ix2 (0 : Fin 1) c) = Cert.GroupNorm.colSum X c)
    (h2 : ∀ c : Fin 65536, u2 (ix2 (0 : Fin 1) c) = Cert.GroupNorm.colSq X c) (g : Fin 4096) :
    aV u1 u2 cg γ (ix1 g) = Cert.GroupNorm.aG X cg γ g := by
  unfold aV
  show γ (ix1 g) * invV u1 u2 cg (ix1 g) = _
  rw [invV_apply u1 u2 cg X h1 h2]
  rfl

/-- The folded shift of the group. -/
theorem bV_apply (h1 : ∀ c : Fin 65536, u1 (ix2 (0 : Fin 1) c) = Cert.GroupNorm.colSum X c)
    (h2 : ∀ c : Fin 65536, u2 (ix2 (0 : Fin 1) c) = Cert.GroupNorm.colSq X c) (g : Fin 4096) :
    bV u1 u2 cg γ β (ix1 g) = Cert.GroupNorm.bG X cg γ β g := by
  unfold bV
  show β (ix1 g) - meanV u1 u2 cg (ix1 g) * aV u1 u2 cg γ (ix1 g) = _
  rw [meanV_apply u1 u2 cg X h1, aV_apply u1 u2 cg γ X h1 h2]
  rfl

/-! ## The table, its gather, and the two rows -/

/-- Column 0 of the table is the folded scale, -/
theorem table_col0 (g : Fin 4096) : table u1 u2 cg γ β (ix2 g (0 : Fin 2)) = aV u1 u2 cg γ (ix1 g) := by
  unfold table cat2
  rw [concat2_col0_apply, bcast_col_apply]

/-- column 1 the folded shift. -/
theorem table_col1 (g : Fin 4096) : table u1 u2 cg γ β (ix2 g (1 : Fin 2)) = bV u1 u2 cg γ β (ix1 g) := by
  unfold table cat2
  rw [concat2_col1_apply, bcast_col_apply]

/-- The group numbers wrapped once, as the program computes them, are the specification's. -/
theorem wrapped_eq : wrapped cg = Cert.GroupNorm.wrapIdx cg := by
  funext i
  unfold wrapped
  show Scalar.select (IntOp.cmpi .slt (cg i) (broadcastInDim S65536 ![] bcast_S_S65536 (constantI S_ 32 0#32) i))
      (IntOp.addi (cg i) (broadcastInDim S65536 ![] bcast_S_S65536 (constantI S_ 32 4096#32) i)) (cg i) = _
  rw [bcast_scalar_apply, bcast_scalar_apply]
  rfl

/-- The gather at channel `c`, column `k`: the table's row at the channel's number, wrapped and clamped. -/
theorem gathered_apply (c : Fin 65536) (k : Fin 2) :
    gathered u1 u2 cg γ β (ix2 c k)
      = table u1 u2 cg γ β (ix2 (Cert.GroupNorm.clampIdx (Cert.GroupNorm.wrapIdx cg) c) k) := by
  have h : broadcastInDim S65536x1 ![0] bcast_S65536_S65536x1_0 (wrapped cg) (ix2 c (0 : Fin 1))
      = Cert.GroupNorm.wrapIdx cg (ix1 c) := by
    rw [bcast_col_apply, wrapped_eq]
  unfold gathered
  rw [gatherStacked_apply]
  exact congrArg (fun r : Fin 4096 => table u1 u2 cg γ β (ix2 r k))
    (Fin.ext (congrArg (fun w : BitVec 32 => min w.toInt.toNat 4095) h))

end Rows

/-- ROW A at channel `c`: the folded scale of the group the channel's number, wrapped once and clamped, names. -/
theorem rowA_apply (X : Cert.GroupNorm.SX.Idx → EReal) (s1 s2 : FVec Ideal S1x65536 .f32) (cg : IVec S65536 32)
    (γ β : FVec Ideal S4096 .f32)
    (h1 : ∀ c : Fin 65536, s1 (ix2 0 c) = Cert.GroupNorm.colSum X c)
    (h2 : ∀ c : Fin 65536, s2 (ix2 0 c) = Cert.GroupNorm.colSq X c) (c : Fin 65536) :
    rowA s1 s2 cg γ β (ix2 0 c)
      = Cert.GroupNorm.aG X cg γ (Cert.GroupNorm.clampIdx (Cert.GroupNorm.wrapIdx cg) c) := by
  unfold rowA
  rw [shapeCast_a_1a_apply, shapeCast_a1_a_apply, slice2_axis1_apply 0 _ _ c (0 : Fin 1) (0 : Fin 2) rfl,
    gathered_apply, table_col0]
  exact aV_apply s1 s2 cg γ X h1 h2 _

/-- ROW B at channel `c`: the folded shift of that group. -/
theorem rowB_apply (X : Cert.GroupNorm.SX.Idx → EReal) (s1 s2 : FVec Ideal S1x65536 .f32) (cg : IVec S65536 32)
    (γ β : FVec Ideal S4096 .f32)
    (h1 : ∀ c : Fin 65536, s1 (ix2 0 c) = Cert.GroupNorm.colSum X c)
    (h2 : ∀ c : Fin 65536, s2 (ix2 0 c) = Cert.GroupNorm.colSq X c) (c : Fin 65536) :
    rowB s1 s2 cg γ β (ix2 0 c)
      = Cert.GroupNorm.bG X cg γ β (Cert.GroupNorm.clampIdx (Cert.GroupNorm.wrapIdx cg) c) := by
  unfold rowB
  rw [shapeCast_a_1a_apply, shapeCast_a1_a_apply, slice2_axis1_apply 1 _ _ c (0 : Fin 1) (1 : Fin 2) rfl,
    gathered_apply, table_col1]
  exact bV_apply s1 s2 cg γ β X h1 h2 _

end Cert.KernelIdeal.HostValue

end
-- ==== Proof.KIResult.lean ====
/-
  The result array of the two-pass program, on the extended reals, as a function of its four argument arrays: entry
  (b, k, 0) is x(b, k) · a(g) + b(g) at the group g the channel k reads, with (a, b) the folded pair of the group
  statistics.  Read off the run's last boundary through the fold: the last host stretch repeats the second pass's output
  along a unit axis; the second pass leaves x · a_c + b_c for the two per-channel rows it is given; the first host
  stretch computes those rows from the first pass's two result rows, which are the column sums and the column sums of
  squares of x; and the argument arrays are what every segment finds them to be.
-/
import proofs.«141373_j16836271800620_2_alg».proof.Proof.KIRun
import proofs.«141373_j16836271800620_2_alg».proof.Proof.KIValue0
import proofs.«141373_j16836271800620_2_alg».proof.Proof.KIValue1
import proofs.«141373_j16836271800620_2_alg».proof.Proof.HostStretch
import proofs.«141373_j16836271800620_2_alg».proof.Proof.HostRowsApply
import proofs.«141373_j16836271800620_2_alg».proof.Proof.Spec

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! The argument arrays and the first pass's rows, after the first pass. -/

theorem W1_arg0 (c : Dev nD) : W1 m ρ c (Proc.devRef .tc main_arg0) = m ((c : Thread nD τ).loc main_arg0) :=
  (W1_arr m ρ c 0).trans (((dat0 (VA m ρ) c).arrAt_in 0 rfl _).trans (A_eq0 (VA m ρ) c 0))
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_sums (c : Dev nD) : W1 m ρ c (Proc.devRef .tc main_v0_0) = colSums (m ((c : Thread nD τ).loc main_arg0)) :=
  (W1_arr m ρ c 1).trans (final0_1 (VA m ρ) c)
theorem W1_sqs (c : Dev nD) : W1 m ρ c (Proc.devRef .tc main_v0_1) = colSqs (m ((c : Thread nD τ).loc main_arg0)) :=
  (W1_arr m ρ c 2).trans (final0_2 (VA m ρ) c)

/-! What the second pass reads, after the first host stretch. -/

theorem W2_arg0 (c : Dev nD) : W2 m ρ c (Proc.devRef .tc main_arg0) = m ((c : Thread nD τ).loc main_arg0) :=
  (StableHlo.after_of_writes_sub hostOps1 _ hostOps1_writes (by decide : main_arg0 ∉ hostOps1_W)).trans (W1_arg0 m ρ c)
theorem W2_rowA (c : Dev nD) : W2 m ρ c (Proc.devRef .tc main_v47)
    = HostValue.rowA (colSums (m ((c : Thread nD τ).loc main_arg0))) (colSqs (m ((c : Thread nD τ).loc main_arg0)))
        (m ((c : Thread nD τ).loc main_arg1)) (m ((c : Thread nD τ).loc main_arg2)) (m ((c : Thread nD τ).loc main_arg3)) := by
  refine (HostValue.after_hostOps1_v47 (W1 m ρ c)).trans ?_
  rw [W1_sums, W1_sqs, W1_arg1, W1_arg2, W1_arg3]
theorem W2_rowB (c : Dev nD) : W2 m ρ c (Proc.devRef .tc main_v50)
    = HostValue.rowB (colSums (m ((c : Thread nD τ).loc main_arg0))) (colSqs (m ((c : Thread nD τ).loc main_arg0)))
        (m ((c : Thread nD τ).loc main_arg1)) (m ((c : Thread nD τ).loc main_arg2)) (m ((c : Thread nD τ).loc main_arg3)) := by
  refine (HostValue.after_hostOps1_v50 (W1 m ρ c)).trans ?_
  rw [W1_sums, W1_sqs, W1_arg1, W1_arg2, W1_arg3]

/-- The second pass's output. -/
theorem W3_out (c : Dev nD) : W3 m ρ c (Proc.devRef .tc main_v51)
    = affineRows (W2 m ρ c (Proc.devRef .tc main_arg0)) (W2 m ρ c (Proc.devRef .tc main_v47)) (W2 m ρ c (Proc.devRef .tc main_v50)) :=
  (W3_arr m ρ c 3).trans (final1_3 (VC m ρ) c)

theorem affineRows_apply (X : S512x65536.Idx → EReal) (A B : S1x65536.Idx → EReal) (b : Fin 512) (k : Fin 65536) :
    affineRows X A B (ix2 b k) = X (ix2 b k) * A (ix2 0 k) + B (ix2 0 k) := rfl

/-- THE RESULT: entry (b, k, 0) of the program's result array is the folded arrangement of the specification. -/
theorem result_apply (c : Dev nD) (b : Fin 512) (k : Fin 65536) :
    W4 m ρ c (Proc.devRef .tc main_v52) (ix3 b k 0)
      = Cert.GroupNorm.foldedOut (m ((c : Thread nD τ).loc main_arg0)) (m ((c : Thread nD τ).loc main_arg1))
          (m ((c : Thread nD τ).loc main_arg2)) (m ((c : Thread nD τ).loc main_arg3))
          (Cert.GroupNorm.clampIdx (Cert.GroupNorm.wrapIdx (m ((c : Thread nD τ).loc main_arg1)))) b k := by
  refine (HostValue.after_hostOps2_v52 (W3 m ρ c) b k).trans ?_
  rw [W3_out, W2_arg0, W2_rowA, W2_rowB]
  rw [affineRows_apply, HostValue.rowA_apply (m ((c : Thread nD τ).loc main_arg0)) _ _ _ _ _ (fun _ => rfl) (fun _ => rfl) k,
    HostValue.rowB_apply (m ((c : Thread nD τ).loc main_arg0)) _ _ _ _ _ (fun _ => rfl) (fun _ => rfl) k]
  rfl

end Cert.KernelIdeal.Frm

end
-- ==== Proof.RefValue.lean ====
import proofs.«141373_j16836271800620_2_alg».proof.Proof.Gen.ReferenceIdeal.Read
import proofs.«141373_j16836271800620_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo
open Cert.GroupNorm

/-! ## The scatter-add of a vector into the groups, read at a group -/

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- The scatter's start on the one operand axis, for the update of channel `c`: the channel's group number read signed. -/
theorem scatter_start (idx : IVec S65536x1 32) (c : Fin 65536) (a : Fin 1) :
    scatter_S4096_S65536x1_S65536_n_0_0_1.start (ix1 c) idx a = (idx (ix2 c 0)).toInt := by
  obtain rfl : a = 0 := Subsingleton.elim _ _
  unfold ScatterDims.start
  rw [dif_pos (show (0 : Fin 1) ∈ scatter_S4096_S65536x1_S65536_n_0_0_1.scatterDimsToOperandDims from List.mem_singleton.mpr rfl)]
  congr 2
  funext b
  refine Fin.ext ?_
  match b with
  | ⟨0, _⟩ => rfl
  | ⟨1, _⟩ => rfl

/-- The operand axis is an inserted one: the window coordinate is zero. -/
theorem scatter_window (j : S65536.Idx) (a : Fin 1) :
    scatter_S4096_S65536x1_S65536_n_0_0_1.window j a = 0 := by
  obtain rfl : a = 0 := Subsingleton.elim _ _
  unfold ScatterDims.window
  rw [dif_neg (by decide)]

/-- The update of channel `c` lands at group `g` exactly when the channel's group number, read signed, is `g`. -/
theorem scatter_resultIdx (idx : IVec S65536x1 32) (c : Fin 65536) (g : Fin 4096) :
    scatter_S4096_S65536x1_S65536_n_0_0_1.resultIdx? (ix1 c) idx = some (ix1 g)
      ↔ (idx (ix2 c 0)).toInt = (g.val : Int) := by
  unfold ScatterDims.resultIdx?
  simp only [scatter_start, scatter_window]
  have hg := g.isLt
  split
  · rename_i h
    constructor
    · intro he
      have h0 := congrArg Fin.val (congrFun (Option.some.inj he) 0)
      have h1 := (h 0).1
      simp only at h0
      change ((idx (ix2 c 0)).toInt + ((0 : Nat) : Int)).toNat = g.val at h0
      omega
    · intro he
      congr 1
      funext a
      obtain rfl : a = 0 := Subsingleton.elim _ _
      refine Fin.ext ?_
      change ((idx (ix2 c 0)).toInt + ((0 : Nat) : Int)).toNat = g.val
      omega
  · rename_i h
    constructor
    · intro he; cases he
    · intro he
      exfalso; apply h
      intro a
      obtain rfl : a = 0 := Subsingleton.elim _ _
      change 0 ≤ (idx (ix2 c 0)).toInt + ((0 : Nat) : Int) ∧ (idx (ix2 c 0)).toInt + ((0 : Nat) : Int) < ((4096 : Nat) : Int)
      omega

/-- A scatter-add of a vector over the channels into a vector over the groups, the scatter indices the group
    numbers as a column, read at group `g`: the operand there plus the sum, over the channels whose number read
    signed is `g`, of the updates. A channel whose number is outside the range lands nowhere. -/
theorem scatterAdd_apply (z : FVec Ideal S4096 .f32) (idx : IVec S65536x1 32) (upd : FVec Ideal S65536 .f32)
    (cg : IVec S65536 32) (hidx : ∀ c : Fin 65536, idx (ix2 c 0) = cg (ix1 c)) (g : Fin 4096) :
    Host.scatterAdd scatter_S4096_S65536x1_S65536_n_0_0_1 z idx upd (ix1 g)
      = z (ix1 g) + ∑ c ∈ members cg g, upd (ix1 c) := by
  simp only [Host.scatterAdd, Ideal.hostScatterAdd_def]
  unfold Ideal.hostScatterAdd members
  refine congrArg (z (ix1 g) + ·) ?_
  refine Finset.sum_equiv (idxEquiv1 (n := 65536)) (fun j => ?_) (fun j _ => ?_)
  · obtain ⟨c, rfl⟩ : ∃ c : Fin 65536, j = ix1 c := ⟨j 0, eq_ix1 j⟩
    rw [Finset.mem_filter, Finset.mem_filter]
    simp only [Finset.mem_univ, true_and]
    refine (scatter_resultIdx idx c g).trans ?_
    rw [hidx]
    rfl
  · obtain ⟨c, rfl⟩ : ∃ c : Fin 65536, j = ix1 c := ⟨j 0, eq_ix1 j⟩
    rfl

/-! ## The gather of a vector over the groups at the channels' group numbers, read at a channel -/

/-- A gather of a vector over the groups, the start indices a column over the channels, read at channel `c`: the
    vector at the channel's start index read signed and clamped into the range of the groups. -/
theorem gather_apply {α : Type} (x : S4096.Idx → α) (idx : IVec S65536x1 32) (wi : IVec S65536 32)
    (hidx : ∀ c : Fin 65536, idx (ix2 c 0) = wi (ix1 c)) (c : Fin 65536) :
    Host.gather gather_S4096_S65536x1_S65536_n_0_n_n_0_1_1 x idx (ix1 c) = x (ix1 (clampIdx wi c)) := by
  unfold Host.gather
  refine congrArg x ?_
  funext a
  obtain rfl : a = 0 := Subsingleton.elim _ _
  refine Fin.ext ?_
  show gather_S4096_S65536x1_S65536_n_0_n_n_0_1_1.start (ix1 c) idx 0
      + gather_S4096_S65536x1_S65536_n_0_n_n_0_1_1.batchCoord (ix1 c) 0
      + gather_S4096_S65536x1_S65536_n_0_n_n_0_1_1.offCoord (ix1 c) 0 = min (wi (ix1 c)).toInt.toNat 4095
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S4096_S65536x1_S65536_n_0_n_n_0_1_1.startIndexMap from List.mem_singleton.mpr rfl)]
  have hsi : gather_S4096_S65536x1_S65536_n_0_n_n_0_1_1.siIdx (ix1 c)
      ⟨List.idxOf (0 : Fin 1) gather_S4096_S65536x1_S65536_n_0_n_n_0_1_1.startIndexMap,
        List.idxOf_lt_length_iff.2 (List.mem_singleton.mpr rfl)⟩ = ix2 c 0 := by
    funext b; refine Fin.ext ?_
    match b with
    | ⟨0, _⟩ => rfl
    | ⟨1, _⟩ => rfl
  rw [hsi, hidx]
  rfl

/-- The group number wrapped once, as the program computes it (four times over), is the specification's. -/
theorem wrap30 (cg : IVec S65536 32) : val_main_v30 (F := Ideal) cg = wrapIdx cg := by
  funext i
  rw [val_main_v30_apply, val_main_v27_apply, val_main_v29_apply, val_main_v26_apply, val_main_v28_apply,
    val_main_c_apply, val_main_c_9_apply]
  rfl
theorem wrap40 (cg : IVec S65536 32) : val_main_v40 (F := Ideal) cg = wrapIdx cg := by
  funext i
  rw [val_main_v40_apply, val_main_v37_apply, val_main_v39_apply, val_main_v36_apply, val_main_v38_apply,
    val_main_c_10_apply, val_main_c_11_apply]
  rfl
theorem wrap50 (cg : IVec S65536 32) : val_main_v50 (F := Ideal) cg = wrapIdx cg := by
  funext i
  rw [val_main_v50_apply, val_main_v47_apply, val_main_v49_apply, val_main_v46_apply, val_main_v48_apply,
    val_main_c_12_apply, val_main_c_13_apply]
  rfl
theorem wrap60 (cg : IVec S65536 32) : val_main_v60 (F := Ideal) cg = wrapIdx cg := by
  funext i
  rw [val_main_v60_apply, val_main_v57_apply, val_main_v59_apply, val_main_v56_apply, val_main_v58_apply,
    val_main_c_14_apply, val_main_c_15_apply]
  rfl

/-- A vector over the channels broadcast to a column, read at row `c`, is the vector at `c`. -/
theorem col_idx (c : Fin 65536) : idx_main_v2 (ix2 c (0 : Fin 1)) = ix1 c := by
  funext a; match a with | ⟨0, _⟩ => rfl

/-! ## The statistics per group -/

/-- The group numbers as a column, read at row `c` (the program broadcasts them three times). -/
theorem col2 (cg : IVec S65536 32) (c : Fin 65536) : val_main_v2 (F := Ideal) cg (ix2 c 0) = cg (ix1 c) :=
  (val_main_v2_apply cg _).trans (congrArg cg (col_idx c))
theorem col10 (cg : IVec S65536 32) (c : Fin 65536) : val_main_v10 (F := Ideal) cg (ix2 c 0) = cg (ix1 c) :=
  (val_main_v10_apply cg _).trans (congrArg cg (col_idx c))
theorem col15 (cg : IVec S65536 32) (c : Fin 65536) : val_main_v15 (F := Ideal) cg (ix2 c 0) = cg (ix1 c) :=
  (val_main_v15_apply cg _).trans (congrArg cg (col_idx c))

/-- The float sum over the rows is the column's sum. -/
theorem colSum_eq (x : FVec Ideal S512x65536 .f32) (c : Fin 65536) :
    val_main_v8 (F := Ideal) x (ix1 c) = colSum x c := by
  rw [val_main_v8_apply, val_main_cst_3_apply]
  simp only [Ideal.ofBits_def, Ideal.ofBits_zero_f32, zero_add]
  unfold colSum
  refine Finset.sum_congr rfl fun k _ => congrArg x ?_
  funext a; match a with | ⟨0, _⟩ => rfl | ⟨1, _⟩ => rfl

/-- The float sum over the rows of the squares is the column's sum of squares. -/
theorem colSq_eq (x : FVec Ideal S512x65536 .f32) (c : Fin 65536) :
    val_main_v13 (F := Ideal) x (ix1 c) = colSq x c := by
  rw [val_main_v13_apply, val_main_cst_5_apply]
  simp only [Ideal.ofBits_def, Ideal.ofBits_zero_f32, zero_add]
  unfold colSq
  refine Finset.sum_congr rfl fun k _ => ?_
  have h : idx_main_v13 (ix1 c) k = ix2 k c := by
    funext a; match a with | ⟨0, _⟩ => rfl | ⟨1, _⟩ => rfl
  rw [val_main_v12_apply, h]
  rfl

/-- The first scatter-add: the number of member channels of the group. -/
theorem cnt_eq (cg : IVec S65536 32) (g : Fin 4096) : val_main_v3 (F := Ideal) cg (ix1 g) = cnt cg g := by
  unfold val_main_v3
  rw [scatterAdd_apply _ _ _ cg (col2 cg) g, val_main_v1_apply, val_main_cst_0_apply]
  simp only [Ideal.ofBits_def, Ideal.ofBits_zero_f32, zero_add]
  unfold cnt
  refine Finset.sum_congr rfl fun c _ => ?_
  rw [val_main_v0_apply, val_main_cst_apply]
  rfl

/-- The number of entries of the group, at least one. -/
theorem counts_eq (cg : IVec S65536 32) (g : Fin 4096) : val_main_v7 (F := Ideal) cg (ix1 g) = counts cg g := by
  rw [val_main_v7_apply, val_main_v5_apply, cnt_eq, val_main_v4_apply, val_main_cst_1_apply, val_main_v6_apply,
    val_main_cst_2_apply]
  rfl

/-- The second scatter-add: the sum of the entries of the group's columns. -/
theorem s1_eq (x : FVec Ideal S512x65536 .f32) (cg : IVec S65536 32) (g : Fin 4096) :
    val_main_v11 (F := Ideal) x cg (ix1 g) = s1 x cg g := by
  unfold val_main_v11
  rw [scatterAdd_apply _ _ _ cg (col10 cg) g, val_main_v9_apply, val_main_cst_4_apply]
  simp only [Ideal.ofBits_def, Ideal.ofBits_zero_f32, zero_add]
  unfold s1
  exact Finset.sum_congr rfl fun c _ => colSum_eq x c

/-- The third scatter-add: the sum of the squares of the entries of the group's columns. -/
theorem s2_eq (x : FVec Ideal S512x65536 .f32) (cg : IVec S65536 32) (g : Fin 4096) :
    val_main_v16 (F := Ideal) x cg (ix1 g) = s2 x cg g := by
  unfold val_main_v16
  rw [scatterAdd_apply _ _ _ cg (col15 cg) g, val_main_v14_apply, val_main_cst_6_apply]
  simp only [Ideal.ofBits_def, Ideal.ofBits_zero_f32, zero_add]
  unfold s2
  exact Finset.sum_congr rfl fun c _ => colSq_eq x c

/-- The mean of the group. -/
theorem mean_eq (x : FVec Ideal S512x65536 .f32) (cg : IVec S65536 32) (g : Fin 4096) :
    val_main_v17 (F := Ideal) x cg (ix1 g) = mean x cg g := by
  rw [val_main_v17_apply, s1_eq, counts_eq]
  rfl

/-- The reciprocal standard deviation of the group, the variance as it is. -/
theorem inv_eq (x : FVec Ideal S512x65536 .f32) (cg : IVec S65536 32) (g : Fin 4096) :
    val_main_v25 (F := Ideal) x cg (ix1 g) = invR x cg g := by
  rw [val_main_v25_apply, val_main_v24_apply, val_main_cst_8_apply, val_main_v23_apply, val_main_v22_apply,
    val_main_v20_apply, val_main_v18_apply, val_main_v19_apply, s2_eq, counts_eq, mean_eq, val_main_v21_apply,
    val_main_cst_7_apply]
  simp only [Ideal.hostDivf_def, Ideal.hostUnary_sqrt_def, Ideal.addf_def, Ideal.subf_def, Ideal.mulf_def,
    Ideal.ofBits_def]
  unfold invR var one eps
  rfl

/-! ## The statistics gathered per channel, and the result -/

/-- The wrapped group numbers as a column, read at row `c` (the program computes and broadcasts them four times). -/
theorem wcol31 (cg : IVec S65536 32) (c : Fin 65536) : val_main_v31 (F := Ideal) cg (ix2 c 0) = wrapIdx cg (ix1 c) := by
  rw [val_main_v31_apply, wrap30]; exact congrArg (wrapIdx cg) (col_idx c)
theorem wcol41 (cg : IVec S65536 32) (c : Fin 65536) : val_main_v41 (F := Ideal) cg (ix2 c 0) = wrapIdx cg (ix1 c) := by
  rw [val_main_v41_apply, wrap40]; exact congrArg (wrapIdx cg) (col_idx c)
theorem wcol51 (cg : IVec S65536 32) (c : Fin 65536) : val_main_v51 (F := Ideal) cg (ix2 c 0) = wrapIdx cg (ix1 c) := by
  rw [val_main_v51_apply, wrap50]; exact congrArg (wrapIdx cg) (col_idx c)
theorem wcol61 (cg : IVec S65536 32) (c : Fin 65536) : val_main_v61 (F := Ideal) cg (ix2 c 0) = wrapIdx cg (ix1 c) := by
  rw [val_main_v61_apply, wrap60]; exact congrArg (wrapIdx cg) (col_idx c)

/-- A vector over the channels broadcast over the rows, read at `(b, c)`, is the vector at `c`. -/
theorem row_idx (b : Fin 512) (c : Fin 65536) : idx_main_v33 (idx_main_v34 (ix2 b c)) = ix1 c := by
  funext a; match a with | ⟨0, _⟩ => rfl

/-- The mean gathered for channel `c`: the mean of the group its wrapped and clamped number names. -/
theorem mean_at (x : FVec Ideal S512x65536 .f32) (cg : IVec S65536 32) (b : Fin 512) (c : Fin 65536) :
    val_main_v34 (F := Ideal) x cg (ix2 b c) = mean x cg (clampIdx (wrapIdx cg) c) := by
  rw [val_main_v34_apply, val_main_v33_apply, row_idx]
  unfold val_main_v32
  rw [gather_apply _ _ (wrapIdx cg) (wcol31 cg) c]
  exact mean_eq x cg _

/-- The reciprocal standard deviation gathered for channel `c`. -/
theorem inv_at (x : FVec Ideal S512x65536 .f32) (cg : IVec S65536 32) (b : Fin 512) (c : Fin 65536) :
    val_main_v44 (F := Ideal) x cg (ix2 b c) = invR x cg (clampIdx (wrapIdx cg) c) := by
  rw [val_main_v44_apply, val_main_v43_apply]
  rw [show idx_main_v43 (idx_main_v44 (ix2 b c)) = ix1 c from row_idx b c]
  unfold val_main_v42
  rw [gather_apply _ _ (wrapIdx cg) (wcol41 cg) c]
  exact inv_eq x cg _

/-- The scale gathered for channel `c`. -/
theorem gamma_at (cg : IVec S65536 32) (γ : FVec Ideal S4096 .f32) (b : Fin 512) (c : Fin 65536) :
    val_main_v54 (F := Ideal) cg γ (ix2 b c) = γ (ix1 (clampIdx (wrapIdx cg) c)) := by
  rw [val_main_v54_apply, val_main_v53_apply]
  rw [show idx_main_v53 (idx_main_v54 (ix2 b c)) = ix1 c from row_idx b c]
  unfold val_main_v52
  exact gather_apply _ _ (wrapIdx cg) (wcol51 cg) c

/-- The shift gathered for channel `c`. -/
theorem beta_at (cg : IVec S65536 32) (β : FVec Ideal S4096 .f32) (b : Fin 512) (c : Fin 65536) :
    val_main_v64 (F := Ideal) cg β (ix2 b c) = β (ix1 (clampIdx (wrapIdx cg) c)) := by
  rw [val_main_v64_apply, val_main_v63_apply]
  rw [show idx_main_v63 (idx_main_v64 (ix2 b c)) = ix1 c from row_idx b c]
  unfold val_main_v62
  exact gather_apply _ _ (wrapIdx cg) (wcol61 cg) c

/-- THE REFERENCE'S VALUE at row `b`, channel `c`: the plain arrangement of the group normalisation, every channel
    reading the statistics of the group its number, wrapped once and clamped, names. -/
theorem result_apply (x : FVec Ideal S512x65536 .f32) (cg : IVec S65536 32) (γ β : FVec Ideal S4096 .f32)
    (b : Fin 512) (c : Fin 65536) :
    val_main_v66 (F := Ideal) x cg γ β (ix3 b c 0) = plainOut x cg γ β (clampIdx (wrapIdx cg)) b c := by
  have h : idx_main_v66 (ix3 b c (0 : Fin 1)) = ix2 b c := by
    funext a; match a with | ⟨0, _⟩ => rfl | ⟨1, _⟩ => rfl
  rw [val_main_v66_apply, h, val_main_v65_apply, val_main_v55_apply, val_main_v45_apply, val_main_v35_apply,
    mean_at, inv_at, gamma_at, beta_at]
  rfl

end Cert.ReferenceIdeal.RefValue

end
-- ==== Proof.FoldedEqPlain.lean ====
/-
  The folded and the plain arrangement of group normalisation agree on finite inputs.

  With every entry of X, γ and β a real number, all the per-group statistics are real: the count is a real at
  least 1, the sums are real sums, and the variance is a nonnegative real by the Cauchy–Schwarz inequality
  (the square of a sum of N terms is at most N times the sum of the squares).  So clamping the variance at zero
  from below changes nothing, the reciprocal standard deviation is the same real in both arrangements, and the
  two final formulas are equal by ring arithmetic on the reals.
-/
import proofs.«141373_j16836271800620_2_alg».proof.Proof.Spec
import Mathlib.Algebra.Order.Chebyshev

noncomputable section

namespace Cert.GroupNorm

open Idealize.ShloMosaic Idealize.ShloMosaic.ValueIdx

/-! ### The four constants as reals -/

theorem one_eq : one = ((1 : ℝ) : EReal) := by
  simp [one, Ideal.ofBits, Ideal.ieee, -EReal.coe_mul]; norm_num

theorem c512_eq : c512 = ((512 : ℝ) : EReal) := by
  simp [c512, Ideal.ofBits, Ideal.ieee, -EReal.coe_mul]; norm_num

theorem zero_eq : zero = ((0 : ℝ) : EReal) := by
  simp [zero, Ideal.ofBits, Ideal.ieee]

/-- The epsilon is the real 10995116 / 2^40 (about 1e-5). -/
theorem eps_eq : eps = ((10995116 * (2 ^ 40)⁻¹ : ℝ) : EReal) := by
  simp [eps, Ideal.ofBits, Ideal.ieee, -EReal.coe_mul]

theorem eps_pos : ∃ e : ℝ, 0 < e ∧ eps = (e : EReal) :=
  ⟨_, by norm_num, eps_eq⟩

/-! ### Sums of reals -/

/-- A finite sum of coerced reals is the coercion of the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ### The per-group statistics as reals -/

/-- Number of entries of the group, at least one. -/
def nR (cg : IVec SC 32) (g : Fin 4096) : ℝ := max (((members cg g).card : ℝ) * 512) 1
def s1R (x : SX.Idx → ℝ) (cg : IVec SC 32) (g : Fin 4096) : ℝ :=
  ∑ c ∈ members cg g, ∑ b : Fin 512, x (ix2 b c)
def s2R (x : SX.Idx → ℝ) (cg : IVec SC 32) (g : Fin 4096) : ℝ :=
  ∑ c ∈ members cg g, ∑ b : Fin 512, x (ix2 b c) * x (ix2 b c)
def meanR (x : SX.Idx → ℝ) (cg : IVec SC 32) (g : Fin 4096) : ℝ := s1R x cg g * (1 / nR cg g)
def varR (x : SX.Idx → ℝ) (cg : IVec SC 32) (g : Fin 4096) : ℝ :=
  s2R x cg g * (1 / nR cg g) - meanR x cg g * meanR x cg g

theorem nR_pos (cg : IVec SC 32) (g : Fin 4096) : 0 < nR cg g :=
  lt_of_lt_of_le one_pos (le_max_right _ _)

theorem nR_ne_zero (cg : IVec SC 32) (g : Fin 4096) : nR cg g ≠ 0 := (nR_pos cg g).ne'

theorem counts_eq (cg : IVec SC 32) (g : Fin 4096) : counts cg g = (nR cg g : EReal) := by
  have hc : cnt cg g = (((members cg g).card : ℝ) : EReal) := by
    unfold cnt
    rw [one_eq, coe_sum (members cg g) (fun _ => (1 : ℝ)), Finset.sum_const, nsmul_eq_mul, mul_one]
  unfold counts nR
  rw [hc, c512_eq, one_eq, ← EReal.coe_mul, ← (EReal.coe_strictMono.monotone).map_max]

theorem s1_eq (x : SX.Idx → ℝ) (cg : IVec SC 32) (g : Fin 4096) :
    s1 (fun i => (x i : EReal)) cg g = (s1R x cg g : EReal) := by
  unfold s1 colSum s1R
  simp only [coe_sum]

theorem s2_eq (x : SX.Idx → ℝ) (cg : IVec SC 32) (g : Fin 4096) :
    s2 (fun i => (x i : EReal)) cg g = (s2R x cg g : EReal) := by
  unfold s2 colSq s2R
  simp only [← EReal.coe_mul, coe_sum]

theorem mean_eq (x : SX.Idx → ℝ) (cg : IVec SC 32) (g : Fin 4096) :
    mean (fun i => (x i : EReal)) cg g = (meanR x cg g : EReal) := by
  unfold mean meanR
  rw [s1_eq, counts_eq, Ideal.div_coe (nR_ne_zero cg g), ← EReal.coe_mul]

theorem var_eq (x : SX.Idx → ℝ) (cg : IVec SC 32) (g : Fin 4096) :
    var (fun i => (x i : EReal)) cg g = (varR x cg g : EReal) := by
  unfold var varR
  rw [mean_eq, s2_eq, counts_eq, Ideal.div_coe (nR_ne_zero cg g), ← EReal.coe_mul, ← EReal.coe_mul,
    ← EReal.coe_sub]

/-- The square of the sum of a group's entries is at most their number times the sum of their squares
    (Cauchy–Schwarz over the member columns times the 512 rows). -/
theorem s1R_sq_le (x : SX.Idx → ℝ) (cg : IVec SC 32) (g : Fin 4096) :
    s1R x cg g ^ 2 ≤ (((members cg g).card : ℝ) * 512) * s2R x cg g := by
  have h1 : s1R x cg g = ∑ p ∈ members cg g ×ˢ (Finset.univ : Finset (Fin 512)), x (ix2 p.2 p.1) := by
    unfold s1R
    rw [Finset.sum_product' (members cg g) (Finset.univ : Finset (Fin 512)) (fun c b => x (ix2 b c))]
  have h2 : s2R x cg g = ∑ p ∈ members cg g ×ˢ (Finset.univ : Finset (Fin 512)), x (ix2 p.2 p.1) ^ 2 := by
    unfold s2R
    rw [Finset.sum_product' (members cg g) (Finset.univ : Finset (Fin 512)) (fun c b => x (ix2 b c) ^ 2)]
    simp only [sq]
  have h3 : ((members cg g ×ˢ (Finset.univ : Finset (Fin 512))).card : ℝ) = ((members cg g).card : ℝ) * 512 := by
    rw [Finset.card_product, Finset.card_univ, Fintype.card_fin]; push_cast; ring
  rw [h1, h2, ← h3]
  exact sq_sum_le_card_mul_sum_sq

/-- THE KEY FACT: the variance of a group is a nonnegative real. -/
theorem varR_nonneg (x : SX.Idx → ℝ) (cg : IVec SC 32) (g : Fin 4096) : 0 ≤ varR x cg g := by
  by_cases h : (members cg g).card = 0
  · have he : members cg g = ∅ := Finset.card_eq_zero.1 h
    unfold varR meanR s1R s2R
    rw [he]
    simp
  · have h1 : (1 : ℝ) ≤ ((members cg g).card : ℝ) := by
      exact_mod_cast Nat.one_le_iff_ne_zero.2 h
    have hN : nR cg g = ((members cg g).card : ℝ) * 512 := by
      unfold nR
      exact max_eq_left (by nlinarith)
    have hpos := nR_pos cg g
    have hcs := s1R_sq_le x cg g
    rw [← hN] at hcs
    have : varR x cg g = (nR cg g * s2R x cg g - s1R x cg g ^ 2) / (nR cg g) ^ 2 := by
      unfold varR meanR
      field_simp
    rw [this]
    exact div_nonneg (sub_nonneg.2 hcs) (sq_nonneg _)

/-- Clamping the variance at zero from below changes nothing. -/
theorem invK_eq_invR (x : SX.Idx → ℝ) (cg : IVec SC 32) (g : Fin 4096) :
    invK (fun i => (x i : EReal)) cg g = invR (fun i => (x i : EReal)) cg g := by
  unfold invK invR
  rw [var_eq, zero_eq, max_eq_left (EReal.coe_le_coe_iff.2 (varR_nonneg x cg g))]

/-- The reciprocal standard deviation is a real: the variance plus epsilon is positive. -/
theorem invR_real (x : SX.Idx → ℝ) (cg : IVec SC 32) (g : Fin 4096) :
    ∃ i : ℝ, invR (fun i => (x i : EReal)) cg g = (i : EReal) := by
  obtain ⟨e, he, hee⟩ := eps_pos
  have hpos : 0 < varR x cg g + e := add_pos_of_nonneg_of_pos (varR_nonneg x cg g) he
  unfold invR
  rw [var_eq, hee, ← EReal.coe_add, Ideal.sqrt_coe, if_neg (not_lt.2 hpos.le), one_eq,
    Ideal.div_coe (Real.sqrt_ne_zero'.2 hpos), ← EReal.coe_mul]
  exact ⟨_, rfl⟩

/-! ### The two arrangements agree -/

theorem foldedOut_eq_plainOut (X : SX.Idx → EReal) (cg : IVec SC 32) (γ β : SG.Idx → EReal) (gi : Fin 65536 → Fin 4096)
    (hX : ∀ i, ∃ r : ℝ, X i = (r : EReal)) (hγ : ∀ i, ∃ r : ℝ, γ i = (r : EReal)) (hβ : ∀ i, ∃ r : ℝ, β i = (r : EReal))
    (b : Fin 512) (c : Fin 65536) : foldedOut X cg γ β gi b c = plainOut X cg γ β gi b c := by
  choose x hx using hX
  choose gr hg using hγ
  choose br hb using hβ
  obtain rfl : X = fun i => (x i : EReal) := funext hx
  obtain rfl : γ = fun i => (gr i : EReal) := funext hg
  obtain rfl : β = fun i => (br i : EReal) := funext hb
  obtain ⟨i, hi⟩ := invR_real x cg (gi c)
  unfold foldedOut plainOut bG aG
  rw [invK_eq_invR, hi, mean_eq]
  simp only [← EReal.coe_mul, ← EReal.coe_sub, ← EReal.coe_add]
  rw [EReal.coe_eq_coe_iff]
  ring

end Cert.GroupNorm

end
-- ==== Proof.FiniteInputs.lean ====
/-
  From the stated precondition to entrywise finiteness.

  The precondition is the conjunction of three tests "every entry has absolute value below +∞", one for each
  floating-point argument.  A conjunction of one-bit words is 1 only when each is; a reduction by "and" over all
  axes is 1 only when every entry is; and an extended real whose absolute value max a (−a) is strictly below +∞
  is neither infinity, hence a real number.
-/
import proofs.«141373_j16836271800620_2_alg».proof.Defs
import Idealize.ShloMosaic.Lib.ReduceAll
import Idealize.ShloMosaic.PureOps.Ideal.Laws
import Idealize.ShloMosaic.Lib.ValueIdx

noncomputable section

namespace Cert.GroupNorm

open Idealize.ShloMosaic Idealize.ShloMosaic.ValueIdx

/-- The scalar shape has one index. -/
instance : Subsingleton Cert.Pre_finite_inputs.S_.Idx := ⟨fun a b => funext fun d => d.elim0⟩

/-- The pattern the tests compare against denotes +∞. -/
theorem ofBits_inf : Ideal.ofBits .f32 0x7F800000#32 = (⊤ : EReal) := by
  simp [Ideal.ofBits, Ideal.ieee]

/-- An extended real whose absolute value is strictly below +∞ is a real. -/
theorem real_of_abs_lt_top (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

theorem finite_of_pre [Cert.Pre_finite_inputs.Facts]
    (x : FVec Ideal Cert.Pre_finite_inputs.S512x65536 .f32) (cg : IVec Cert.Pre_finite_inputs.S65536 32)
    (γ β : FVec Ideal Cert.Pre_finite_inputs.S4096 .f32)
    (h : Cert.Pre_finite_inputs.fn (F := Ideal) x cg γ β = fun _ => 1#1) :
    (∀ i, ∃ r : ℝ, x i = (r : EReal)) ∧ (∀ i, ∃ r : ℝ, γ i = (r : EReal)) ∧ (∀ i, ∃ r : ℝ, β i = (r : EReal)) := by
  have h0 := congrFun h ix0
  dsimp only [Cert.Pre_finite_inputs.fn] at h0
  change IntOp.andi (IntOp.andi _ _) _ = 1#1 at h0
  obtain ⟨h12, hβ⟩ := IntOp.andi_eq_one.1 h0
  obtain ⟨hx, hγ⟩ := IntOp.andi_eq_one.1 h12
  refine ⟨fun i => ?_, fun i => ?_, fun i => ?_⟩
  · exact real_of_abs_lt_top (x i) (Host.reduce_andi_all _ _ _ _ _ hx i)
  · exact real_of_abs_lt_top (γ i) (Host.reduce_andi_all _ _ _ _ _ hγ i)
  · exact real_of_abs_lt_top (β i) (Host.reduce_andi_all _ _ _ _ _ hβ i)

end Cert.GroupNorm

end
-- ==== Proof.Algebraic.lean ====
/-
  The two programs end with equal results.  From memories agreeing on the four arguments, under the precondition that
  every floating-point input is finite: the two-pass program's result array holds, at (b, k, 0), the folded arrangement
  x · a + b of the group normalisation; the reference's holds the plain arrangement ((x − mean) · inv) · γ + β; for
  finite inputs the two arrangements are one function.  The common result is stated as the two-pass program's array.
-/
import proofs.«141373_j16836271800620_2_alg».proof.Defs
import proofs.«141373_j16836271800620_2_alg».proof.Proof.Gen.Kernel
import proofs.«141373_j16836271800620_2_alg».proof.Proof.Gen.KernelIdeal
import proofs.«141373_j16836271800620_2_alg».proof.Proof.Gen.ReferenceIdeal
import proofs.«141373_j16836271800620_2_alg».proof.Proof.Gen.Pre_finite_inputs
import proofs.«141373_j16836271800620_2_alg».proof.Proof.Gen.ReferenceIdeal.Read
import proofs.«141373_j16836271800620_2_alg».proof.Proof.KIResult
import proofs.«141373_j16836271800620_2_alg».proof.Proof.RefValue
import proofs.«141373_j16836271800620_2_alg».proof.Proof.FoldedEqPlain
import proofs.«141373_j16836271800620_2_alg».proof.Proof.FiniteInputs

noncomputable section

namespace Cert.Proof

open Idealize.ShloMosaic Idealize.ShloMosaic.TcCoe Idealize.ShloMosaic.ValueIdx Idealize.SL.Sem

theorem algebraic : Cert.algebraic_KernelIdeal_ReferenceIdeal := by
  intro m ρ m' ρ' hpre hagree
  refine ⟨fun c => Cert.KernelIdeal.Frm.W4 m ρ c (Proc.devRef .tc Cert.KernelIdeal.main_v52), ?_, ?_⟩
  · exact (θ_run Cert.KernelIdeal.defs _ _).mono (fun r h c =>
      ⟨h c _ (Cert.KernelIdeal.Frm.mem_uc Cert.KernelIdeal.main_v52 (by decide)),
       (h c _ (Cert.KernelIdeal.Frm.mem_uc Cert.KernelIdeal.main_arg0 (by decide))).trans (Cert.KernelIdeal.Frm.W4_main_arg0 m ρ c),
       (h c _ (Cert.KernelIdeal.Frm.mem_uc Cert.KernelIdeal.main_arg1 (by decide))).trans (Cert.KernelIdeal.Frm.W4_main_arg1 m ρ c),
       (h c _ (Cert.KernelIdeal.Frm.mem_uc Cert.KernelIdeal.main_arg2 (by decide))).trans (Cert.KernelIdeal.Frm.W4_main_arg2 m ρ c),
       (h c _ (Cert.KernelIdeal.Frm.mem_uc Cert.KernelIdeal.main_arg3 (by decide))).trans (Cert.KernelIdeal.Frm.W4_main_arg3 m ρ c)⟩)
      (Cert.KernelIdeal.Frm.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨hx, hγ, hβ⟩ := Cert.GroupNorm.finite_of_pre _ _ _ _ (hpre c)
    rw [Cert.ReferenceIdeal.Read.val_main_v66_eq, (hagree c).1, (hagree c).2.1, (hagree c).2.2.1, (hagree c).2.2.2]
    funext i
    obtain ⟨b, k, u, rfl⟩ : ∃ (b : Fin 512) (k : Fin 65536) (u : Fin 1), i = ix3 b k u := ⟨i 0, i 1, i 2, eq_ix3 i⟩
    obtain rfl : u = 0 := Subsingleton.elim _ _
    refine (Cert.ReferenceIdeal.RefValue.result_apply _ _ _ _ b k).trans ?_
    refine ((Cert.KernelIdeal.Frm.result_apply m ρ c b k).trans ?_).symm
    exact Cert.GroupNorm.foldedOut_eq_plainOut _ _ _ _ _ hx hγ hβ b k

end Cert.Proof

end
-- ==== Proof.lean ====
/-
  The certificate of the grouped channel normalisation: the program that makes two passes over the 512 × 65536 input
  (column sums and sums of squares; then x · a + b per channel) with per-group statistics computed in between, against
  the reference that computes the same statistics with three separate segment sums and normalises entry by entry.

  Frames.  Each of the two-pass programs is four segments — pass, host stretch, pass, host stretch — and its run ends
  with every buffer at a named fold of the launch memory, from which the four argument arrays are read back unchanged;
  the reference has no kernel and its frame is its run with the result dropped.

  Values, on the extended reals and for finite inputs.  The two-pass program ends with x · a + b where, per group g,
  a = γ / sqrt(max(var, 0) + ε) and b = β − mean · a; the reference with ((x − mean) / sqrt(var + ε)) · γ + β.  The group
  statistics are the same sums on both sides.  The variance of finitely many reals is nonnegative (Cauchy–Schwarz on
  the group's entries), so the clamp is idle; every quantity is a real, so the two arrangements agree by the field laws.
-/
import proofs.«141373_j16836271800620_2_alg».proof.Defs
import proofs.«141373_j16836271800620_2_alg».proof.Proof.Gen.Kernel
import proofs.«141373_j16836271800620_2_alg».proof.Proof.Gen.KernelIdeal
import proofs.«141373_j16836271800620_2_alg».proof.Proof.Gen.ReferenceIdeal
import proofs.«141373_j16836271800620_2_alg».proof.Proof.Gen.Pre_finite_inputs
import proofs.«141373_j16836271800620_2_alg».proof.Proof.Gen.ReferenceIdeal.Run
import proofs.«141373_j16836271800620_2_alg».proof.Proof.KRun
import proofs.«141373_j16836271800620_2_alg».proof.Proof.KIRun
import proofs.«141373_j16836271800620_2_alg».proof.Proof.Algebraic
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Frm.frame m ρ
theorem frame_ki : @Cert.frame_KernelIdeal Cert.KernelIdeal.Gen.facts Cert.Pre_finite_inputs.Gen.facts :=
  fun m ρ _ => Cert.KernelIdeal.Frm.frame m ρ
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.algebraic⟩

end Cert.Proof

end
